-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4x128x3136 .f32 .bf16
  ∧ IdealRules.truncf_extf.Statement Cert.KernelIdeal.S4x128x3136 .f32 .bf16
  ∧ IdealRules.truncf_extf.Statement Cert.KernelIdeal.S2x256x3136 .f32 .bf16
  ∧ IdealRules.truncf_extf.Statement Cert.KernelIdeal.S2x256x3136 .f32 .bf16
  ∧ IdealRules.truncf_extf.Statement Cert.KernelIdeal.S2x256x3136 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) (main_arg2 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x56x56 : Shape := ⟨4, ![64, 256, 56, 56]⟩
abbrev S256 : Shape := ⟨1, ![256]⟩
abbrev S64x256x3136 : Shape := ⟨3, ![64, 256, 3136]⟩
abbrev S1x256x1 : Shape := ⟨3, ![1, 256, 1]⟩
abbrev S4x128x3136 : Shape := ⟨3, ![4, 128, 3136]⟩
abbrev S1x128x1 : Shape := ⟨3, ![1, 128, 1]⟩
abbrev S4x128 : Shape := ⟨2, ![4, 128]⟩
abbrev S4x128x1 : Shape := ⟨3, ![4, 128, 1]⟩
abbrev S128x1 : Shape := ⟨2, ![128, 1]⟩
abbrev S_ : Shape := ⟨0, ![]⟩
abbrev S2x256x3136 : Shape := ⟨3, ![2, 256, 3136]⟩

abbrev nBuf : Space → Nat
  | .hbm => 32
  | .vmem => 21
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S64x256x3136, .f32⟩
  | .hbm, ⟨4, _⟩ => ⟨S1x256x1, .f32⟩
  | .hbm, ⟨5, _⟩ => ⟨S64x256x3136, .bf16⟩
  | .hbm, ⟨6, _⟩ => ⟨S_, .f32⟩
  | .hbm, ⟨7, _⟩ => ⟨S1x256x1, .f32⟩
  | .hbm, ⟨8, _⟩ => ⟨S1x256x1, .f32⟩
  | .hbm, ⟨9, _⟩ => ⟨S1x256x1, .bf16⟩
  | .hbm, ⟨10, _⟩ => ⟨S1x256x1, .f32⟩
  | .hbm, ⟨11, _⟩ => ⟨S1x256x1, .f32⟩
  | .hbm, ⟨12, _⟩ => ⟨S1x256x1, .bf16⟩
  | .hbm, ⟨13, _⟩ => ⟨S1x256x1, .f32⟩
  | .hbm, ⟨14, _⟩ => ⟨S_, .f32⟩
  | .hbm, ⟨15, _⟩ => ⟨S1x256x1, .f32⟩
  | .hbm, ⟨16, _⟩ => ⟨S1x256x1, .f32⟩
  | .hbm, ⟨17, _⟩ => ⟨S1x256x1, .bf16⟩
  | .hbm, ⟨18, _⟩ => ⟨S1x256x1, .f32⟩
  | .hbm, ⟨19, _⟩ => ⟨S_, .f32⟩
  | .hbm, ⟨20, _⟩ => ⟨S1x256x1, .f32⟩
  | .hbm, ⟨21, _⟩ => ⟨S1x256x1, .f32⟩
  | .hbm, ⟨22, _⟩ => ⟨S1x256x1, .f32⟩
  | .hbm, ⟨23, _⟩ => ⟨S_, .f32⟩
  | .hbm, ⟨24, _⟩ => ⟨S1x256x1, .f32⟩
  | .hbm, ⟨25, _⟩ => ⟨S1x256x1, .f32⟩
  | .hbm, ⟨26, _⟩ => ⟨S256, .bf16⟩
  | .hbm, ⟨27, _⟩ => ⟨S256, .f32⟩
  | .hbm, ⟨28, _⟩ => ⟨S1x256x1, .f32⟩
  | .hbm, ⟨29, _⟩ => ⟨S1x256x1, .f32⟩
  | .hbm, ⟨30, _⟩ => ⟨S64x256x3136, .f32⟩
  | .hbm, ⟨31, _⟩ => ⟨S64x256x56x56, .f32⟩
  | .local _ .vmem, ⟨0, _⟩ => ⟨S4x128x3136, .f32⟩
  | .local _ .vmem, ⟨1, _⟩ => ⟨S4x128x3136, .f32⟩
  | .local _ .vmem, ⟨2, _⟩ => ⟨S1x128x1, .f32⟩
  | .local _ .vmem, ⟨3, _⟩ => ⟨S1x128x1, .f32⟩
  | .local _ .vmem, ⟨4, _⟩ => ⟨S4x128x3136, .bf16⟩
  | .local _ .vmem, ⟨5, _⟩ => ⟨S4x128x3136, .bf16⟩
  | .local _ .vmem, ⟨6, _⟩ => ⟨S1x128x1, .f32⟩
  | .local _ .vmem, ⟨7, _⟩ => ⟨S4x128x3136, .bf16⟩
  | .local _ .vmem, ⟨8, _⟩ => ⟨S4x128x3136, .bf16⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S2x256x3136, .bf16⟩
  | .local _ .vmem, ⟨14, _⟩ => ⟨S2x256x3136, .bf16⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1, .f32⟩
  | .local _ .vmem, ⟨19, _⟩ => ⟨S2x256x3136, .f32⟩
  | .local _ .vmem, ⟨20, _⟩ => ⟨S2x256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x128x3136 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_13 : BitVec 32 := 0#32
  let v24 : BitVec 1 := Scalar.cmpi .ne v23 c0_i32_13
  v24

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x128x3136 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x256x3136 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x256x3136 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S64x256x56x56_S64x256x3136 : S64x256x56x56.ShapeCasts S64x256x3136
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  inb_S4x128x3136_S4x128x3136_0_0_0 : ∀ a, (![0, 0, 0] : Fin 3 → Nat) a + S4x128x3136.size a ≤ S4x128x3136.size a
  h_S4x128x3136 : 0 < S4x128x3136.numel
  shapeCasts_S4x128x3136_S4x128x3136 : S4x128x3136.ShapeCasts S4x128x3136
  bitsLt_bf16_f32 : FTy.bits .bf16 < FTy.bits .f32
  packedbf16_S4x128x3136_S4x128x3136_0_0_0 : (Rect.unit (s := S4x128x3136) ![0, 0, 0] S4x128x3136.size inb_S4x128x3136_S4x128x3136_0_0_0).PackedRows (EltTy.packing .bf16)
  reduces_S4x128x3136_S4x128 : S4x128x3136.Reduces [2] S4x128
  shapeCasts_S4x128_S4x128x1 : S4x128.ShapeCasts S4x128x1
  reduces_S4x128x1_S128x1 : S4x128x1.Reduces [0] S128x1
  shapeCasts_S128x1_S1x128x1 : S128x1.ShapeCasts S1x128x1
  bcast_S_S1x256x1 : S_.BroadcastsInDim S1x256x1 (![] : Fin 0 → Fin S1x256x1.rank)
  broadcasts_S1x128x1_S4x128x3136 : S1x128x1.Broadcasts S4x128x3136
  shapeCasts_S256_S1x256x1 : S256.ShapeCasts S1x256x1
  inb_S2x256x3136_S2x256x3136_0_0_0 : ∀ a, (![0, 0, 0] : Fin 3 → Nat) a + S2x256x3136.size a ≤ S2x256x3136.size a
  h_S2x256x3136 : 0 < S2x256x3136.numel
  shapeCasts_S2x256x3136_S2x256x3136 : S2x256x3136.ShapeCasts S2x256x3136
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S2x256x3136 : S1x256x1.Broadcasts S2x256x3136
  shapeCasts_S64x256x3136_S64x256x56x56 : S64x256x3136.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3136.size a ≤ S64x256x3136.size a
  hwx0_0 : ∀ i : grid0.Coords, EltTy.bits .f32 = 32 ∨ (Rect.block (s := S64x256x3136) S4x128x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S1x256x1.size a
  hwx0_1 : ∀ i : grid0.Coords, EltTy.bits .f32 = 32 ∨ (Rect.block (s := S1x256x1) S1x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x3136.size a ≤ S64x256x3136.size a
  hwx0_2 : ∀ i : grid0.Coords, EltTy.bits .bf16 = 32 ∨ (Rect.block (s := S64x256x3136) S4x128x3136.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x3136.size a ≤ S64x256x3136.size a
  hwx1_0 : ∀ i : grid1.Coords, EltTy.bits .bf16 = 32 ∨ (Rect.block (s := S64x256x3136) S4x128x3136.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128x1.size a ≤ S1x256x1.size a
  hwx1_1 : ∀ i : grid1.Coords, EltTy.bits .f32 = 32 ∨ (Rect.block (s := S1x256x1) S1x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1.size a ≤ S1x256x1.size a
  hwx1_2 : ∀ i : grid1.Coords, EltTy.bits .f32 = 32 ∨ (Rect.block (s := S1x256x1) S1x128x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x256x3136.size a ≤ S64x256x3136.size a
  hwx2_0 : ∀ i : grid2.Coords, EltTy.bits .bf16 = 32 ∨ (Rect.block (s := S64x256x3136) S2x256x3136.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256x1.size a ≤ S1x256x1.size a
  hwx2_1 : ∀ i : grid2.Coords, EltTy.bits .f32 = 32 ∨ (Rect.block (s := S1x256x1) S1x256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256x1.size a ≤ S1x256x1.size a
  hwx2_2 : ∀ i : grid2.Coords, EltTy.bits .f32 = 32 ∨ (Rect.block (s := S1x256x1) S1x256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256x1.size a ≤ S1x256x1.size a
  hwx2_3 : ∀ i : grid2.Coords, EltTy.bits .f32 = 32 ∨ (Rect.block (s := S1x256x1) S1x256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256x1.size a ≤ S1x256x1.size a
  hwx2_4 : ∀ i : grid2.Coords, EltTy.bits .f32 = 32 ∨ (Rect.block (s := S1x256x1) S1x256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x256x3136.size a ≤ S64x256x3136.size a
  hwx2_5 : ∀ i : grid2.Coords, EltTy.bits .f32 = 32 ∨ (Rect.block (s := S64x256x3136) S2x256x3136.size (cc2_transform_5 i) (hinb2_5 i)).WholeWords (EltTy.packing .f32)

variable [Facts₀]

abbrev win0_0 : Pipeline.Window sig grid0 :=
  Pipeline.Window.ofSpec (Memref.whole main_v0) S4x128x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x128x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4x128x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v1_1) S4x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1_1) S2x256x3136.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S2x256x3136.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1x256x1x1 : Shape := ⟨4, ![1, 256, 1, 1]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S64x256x56x56, .bf16⟩
  | .hbm, ⟨4, _⟩ => ⟨S64x256x56x56, .f32⟩
  | .hbm, ⟨5, _⟩ => ⟨S256, .bf16⟩
  | .hbm, ⟨6, _⟩ => ⟨S256, .f32⟩
  | .hbm, ⟨7, _⟩ => ⟨S1x256x1x1, .f32⟩
  | .hbm, ⟨8, _⟩ => ⟨S1x256x1x1, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256, .bf16⟩
  | .hbm, ⟨15, _⟩ => ⟨S256, .f32⟩
  | .hbm, ⟨16, _⟩ => ⟨S1x256x1x1, .f32⟩
  | .hbm, ⟨17, _⟩ => ⟨S64x256x56x56, .f32⟩
  | .hbm, ⟨18, _⟩ => ⟨S64x256x56x56, .f32⟩
  | .hbm, ⟨19, _⟩ => ⟨S64x256x56x56, .f32⟩
  | .hbm, ⟨20, _⟩ => ⟨S64x256x56x56, .bf16⟩
  | .hbm, ⟨21, _⟩ => ⟨S64x256x56x56, .f32⟩
  | .hbm, ⟨22, _⟩ => ⟨S_, .f32⟩
  | .hbm, ⟨23, _⟩ => ⟨S256, .f32⟩
  | .hbm, ⟨24, _⟩ => ⟨S256, .bf16⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .bf16⟩
  | .hbm, ⟨30, _⟩ => ⟨S256, .f32⟩
  | .hbm, ⟨31, _⟩ => ⟨S1x256x1x1, .f32⟩
  | .hbm, ⟨32, _⟩ => ⟨S_, .f32⟩
  | .hbm, ⟨33, _⟩ => ⟨S1x256x1x1, .f32⟩
  | .hbm, ⟨34, _⟩ => ⟨S1x256x1x1, .f32⟩
  | .hbm, ⟨35, _⟩ => ⟨S1x256x1x1, .f32⟩
  | .hbm, ⟨36, _⟩ => ⟨S_, .f32⟩
  | .hbm, ⟨37, _⟩ => ⟨S1x256x1x1, .f32⟩
  | .hbm, ⟨38, _⟩ => ⟨S1x256x1x1, .f32⟩
  | .hbm, ⟨39, _⟩ => ⟨S64x256x56x56, .f32⟩
  | .hbm, ⟨40, _⟩ => ⟨S64x256x56x56, .f32⟩
  | .hbm, ⟨41, _⟩ => ⟨S64x256x56x56, .f32⟩
  | .hbm, ⟨42, _⟩ => ⟨S64x256x56x56, .f32⟩
  | .hbm, ⟨43, _⟩ => ⟨S64x256x56x56, .bf16⟩
  | .hbm, ⟨44, _⟩ => ⟨S64x256x56x56, .f32⟩
  | .hbm, ⟨45, _⟩ => ⟨S64x256x56x56, .f32⟩
  | .hbm, ⟨46, _⟩ => ⟨S64x256x56x56, .f32⟩
  | .hbm, ⟨47, _⟩ => ⟨S64x256x56x56, .bf16⟩
  | .hbm, ⟨48, _⟩ => ⟨S64x256x56x56, .f32⟩
  | .hbm, ⟨49, _⟩ => ⟨S64x256x56x56, .f32⟩
  | .hbm, ⟨50, _⟩ => ⟨S64x256x56x56, .f32⟩
  | .hbm, ⟨51, _⟩ => ⟨S64x256x56x56, .bf16⟩
  | .hbm, ⟨52, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]

class Facts₀ : Prop where
  bitsLt_bf16_f32 : FTy.bits .bf16 < FTy.bits .f32
  shapeCasts_S256_S1x256x1x1 : S256.ShapeCasts S1x256x1x1
  reducesTo_S64x256x56x56_S256_d0_2_3 : S64x256x56x56.ReducesTo [0, 2, 3] S256
  h_S_ : 0 < S_.numel
  bcast_S_S256 : S_.BroadcastsInDim S256 (![] : Fin 0 → Fin S256.rank)
  bcast_S1x256x1x1_S64x256x56x56_0_1_2_3 : S1x256x1x1.BroadcastsInDim S64x256x56x56 (![0, 1, 2, 3] : Fin 4 → Fin S64x256x56x56.rank)
  bcast_S_S1x256x1x1 : S_.BroadcastsInDim S1x256x1x1 (![] : Fin 0 → Fin S1x256x1x1.rank)

variable [Facts₀]

class Facts : Prop extends Facts₀ where

variable [Facts]
-- ==== Proof.K.R0Base.lean ====
/-
  Region 0 (the per-channel sum): what its three control cases share.
  The grid is 2 x 16: the first coordinate picks a half of the 256 channels, the second walks the 64 batch
  rows four at a time. A scratch column of 128 partial sums is reset at the first batch block of a half,
  added to at every block, and copied to the output column at the last block.
-/
import proofs.«177003_j180388626588_2_alg».proof.Proof.Gen.Kernel.Launch
import proofs.«177003_j180388626588_2_alg».proof.Proof.Gen.Kernel.Skeleton
import proofs.«177003_j180388626588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two conditions, decided over the grid -/

/-- "this is the first batch block": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "this is the last batch block": the second grid coordinate is fifteen. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_2 : ∀ t : Fin cfg0.N, cfg0.idle 2 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1x128x1 .f32 := (Memref.whole cc0_stg1_0 : Memref sig .tc .vmem S1x128x1 .f32).view
abbrev VO0_2 : View sig .tc .vmem S4x128x3136 .bf16 := (Memref.whole cc0_stg2_0 : Memref sig .tc .vmem S4x128x3136 .bf16).view
abbrev ms0_0 (t : Fin cfg0.N) : Memref sig .tc .vmem S4x128x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128x3136 .bf16 := win0_2.stage (cfg0.slots t 2)
abbrev hs0_2 (t : Fin cfg0.N) : (ms0_2 t).IsWhole := hstage0_2 ((cfg0.slots t 2).cast nbuf0_2)
/-- The scratch column of partial sums. -/
abbrev scM0 : Memref sig .tc .vmem S1x128x1 .f32 := Memref.whole cc0_scratch0
abbrev VS0 : View sig .tc .vmem S1x128x1 .f32 := scM0.view

/-- The scoped buffers the region does not stage, other than the scratch column: carried through unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch column split out as a memref owned at some contents. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]
  rfl

end Cert.Kernel.Fr

end
-- ==== Proof.K.R0Runs.lean ====
/-
  Region 0: the body's run in each of its three control cases. Each run owns the input block, hands an
  output it does not store into back untouched, and ends with the stores' pieces written into the buffers
  it did store into; the pieces are found by running the body.
-/
import proofs.«177003_j180388626588_2_alg».proof.Proof.K.R0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First batch block of a half: the scratch column is reset and the block's sums added; the quantized block is stored;
    the sum output is left alone. -/
noncomputable def kernelRun0_A (c : Dev nD) (i : grid0.Coords) (arg2 : Memref sig .tc .vmem S4x128x3136 .f32) (harg2 : arg2.IsWhole) (arg3 : Memref sig .tc .vmem S1x128x1 .f32) (harg3 : arg3.IsWhole) (arg4 : Memref sig .tc .vmem S4x128x3136 .bf16) (harg4 : arg4.IsWhole) (arg5 : Memref sig .tc .vmem S1x128x1 .f32) (harg5 : arg5.IsWhole) (hc0 : cond0_0 i) (hc1 : ¬cond0_1 i)
    (x0 : Vec F S4x128x3136 .f32) :
    Σ' (L2 : List (View.Piece (Elt F) S4x128x3136 .bf16)), { LS0 : List (View.Piece (Elt F) S1x128x1 .f32) //
      ∀ (xi1 : Vec F S1x128x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- A middle batch block: the block's sums are added to the scratch column as the block before left it. -/
noncomputable def kernelRun0_B (c : Dev nD) (i : grid0.Coords) (arg2 : Memref sig .tc .vmem S4x128x3136 .f32) (harg2 : arg2.IsWhole) (arg3 : Memref sig .tc .vmem S1x128x1 .f32) (harg3 : arg3.IsWhole) (arg4 : Memref sig .tc .vmem S4x128x3136 .bf16) (harg4 : arg4.IsWhole) (arg5 : Memref sig .tc .vmem S1x128x1 .f32) (harg5 : arg5.IsWhole) (hc0 : ¬cond0_0 i) (hc1 : ¬cond0_1 i)
    (x0 : Vec F S4x128x3136 .f32) (xs0 : Vec F S1x128x1 .f32) :
    Σ' (L2 : List (View.Piece (Elt F) S4x128x3136 .bf16)), { LS0 : List (View.Piece (Elt F) S1x128x1 .f32) //
      ∀ (xi1 : Vec F S1x128x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- Last batch block of a half: after the addition the scratch column is copied into the sum output. -/
noncomputable def kernelRun0_C (c : Dev nD) (i : grid0.Coords) (arg2 : Memref sig .tc .vmem S4x128x3136 .f32) (harg2 : arg2.IsWhole) (arg3 : Memref sig .tc .vmem S1x128x1 .f32) (harg3 : arg3.IsWhole) (arg4 : Memref sig .tc .vmem S4x128x3136 .bf16) (harg4 : arg4.IsWhole) (arg5 : Memref sig .tc .vmem S1x128x1 .f32) (harg5 : arg5.IsWhole) (hc0 : ¬cond0_0 i) (hc1 : cond0_1 i)
    (x0 : Vec F S4x128x3136 .f32) (xs0 : Vec F S1x128x1 .f32) :
    Σ' (L1 : List (View.Piece (Elt F) S1x128x1 .f32)) (L2 : List (View.Piece (Elt F) S4x128x3136 .bf16)), { LS0 : List (View.Piece (Elt F) S1x128x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.Kernel.Fr

end
-- ==== Proof.K.R0Frame.lean ====
/-
  Region 0: the proof data of its pipeline. What the two outputs' staging buffers and the scratch column hold
  after each grid point is defined by recursion on the point (the case the point is in, run on the point's
  input block and on the scratch column as the point before left it); the region invariant carries the
  scratch column at those contents from point to point; the body obligation is a case split on the point.
-/
import proofs.«177003_j180388626588_2_alg».proof.Proof.K.R0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The three cases at a grid point -/

/-- The first-block case at point `t`, run on the point's input block. -/
def runA0 (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t)
/-- The middle case at point `t`, on the scratch column `xs`. -/
def runB0 (c : Dev nD) (t : Fin cfg0.N) (h0 : ¬t.val % 16 = 0) (h1 : ¬t.val % 16 = 15) (xs : Vec F S1x128x1 .f32) :=
  kernelRun0_B (F := F) c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) xs
/-- The last-block case at point `t`, on the scratch column `xs`. -/
def runC0 (c : Dev nD) (t : Fin cfg0.N) (h0 : ¬t.val % 16 = 0) (h1 : t.val % 16 = 15) (xs : Vec F S1x128x1 .f32) :=
  kernelRun0_C (F := F) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) xs

/-- Placeholder contents of the sum output at a point that does not store into it (never consulted: the window is idle
    there and not written back). -/
def idle0_1 : Vec F S1x128x1 .f32 := VO0_1.read (Elt F) (VO0_1.writes (Elt F) VO0_1.junk [])

/-- The sum output, the quantized block and the scratch column after a first-block point. -/
def outsA0 (c : Dev nD) (t : Fin cfg0.N) (h0 : t.val % 16 = 0) (h1 : ¬t.val % 16 = 15) :
    Vec F S1x128x1 .f32 × Vec F S4x128x3136 .bf16 × Vec F S1x128x1 .f32 :=
  (idle0_1, VO0_2.read (Elt F) (VO0_2.writes (Elt F) VO0_2.junk (runA0 V c t h0 h1).1),
    VS0.read (Elt F) (VS0.writes (Elt F) VS0.junk (runA0 V c t h0 h1).2.1))
/-- after a middle point, -/
def outsB0 (c : Dev nD) (t : Fin cfg0.N) (h0 : ¬t.val % 16 = 0) (h1 : ¬t.val % 16 = 15) (xs : Vec F S1x128x1 .f32) :
    Vec F S1x128x1 .f32 × Vec F S4x128x3136 .bf16 × Vec F S1x128x1 .f32 :=
  (idle0_1, VO0_2.read (Elt F) (VO0_2.writes (Elt F) VO0_2.junk (runB0 V c t h0 h1 xs).1),
    VS0.read (Elt F) (VS0.writes (Elt F) VS0.junk (runB0 V c t h0 h1 xs).2.1))
/-- after a last-block point. -/
def outsC0 (c : Dev nD) (t : Fin cfg0.N) (h0 : ¬t.val % 16 = 0) (h1 : t.val % 16 = 15) (xs : Vec F S1x128x1 .f32) :
    Vec F S1x128x1 .f32 × Vec F S4x128x3136 .bf16 × Vec F S1x128x1 .f32 :=
  (VO0_1.read (Elt F) (VO0_1.writes (Elt F) VO0_1.junk (runC0 V c t h0 h1 xs).1),
    VO0_2.read (Elt F) (VO0_2.writes (Elt F) VO0_2.junk (runC0 V c t h0 h1 xs).2.1),
    VS0.read (Elt F) (VS0.writes (Elt F) VS0.junk (runC0 V c t h0 h1 xs).2.2.1))

/-! ## The stores of each case cover the buffers they go to -/

theorem coverA0_2 (c : Dev nD) (t : Fin cfg0.N) (h0 h1) (y : S4x128x3136.Idx) : ∃ pc ∈ (runA0 V c t h0 h1).1, y ∈ pc.1.set :=
  View.cover_of_tiledL (runA0 V c t h0 h1).1 S4x128x3136.size (by sl_kernel_rfl) y
theorem coverA0_s (c : Dev nD) (t : Fin cfg0.N) (h0 h1) (y : S1x128x1.Idx) : ∃ pc ∈ (runA0 V c t h0 h1).2.1, y ∈ pc.1.set :=
  View.cover_of_tiledL (runA0 V c t h0 h1).2.1 S1x128x1.size (by sl_kernel_rfl) y
theorem coverB0_2 (c : Dev nD) (t : Fin cfg0.N) (h0 h1 xs) (y : S4x128x3136.Idx) : ∃ pc ∈ (runB0 V c t h0 h1 xs).1, y ∈ pc.1.set :=
  View.cover_of_tiledL (runB0 V c t h0 h1 xs).1 S4x128x3136.size (by sl_kernel_rfl) y
theorem coverB0_s (c : Dev nD) (t : Fin cfg0.N) (h0 h1 xs) (y : S1x128x1.Idx) : ∃ pc ∈ (runB0 V c t h0 h1 xs).2.1, y ∈ pc.1.set :=
  View.cover_of_tiledL (runB0 V c t h0 h1 xs).2.1 S1x128x1.size (by sl_kernel_rfl) y
theorem coverC0_1 (c : Dev nD) (t : Fin cfg0.N) (h0 h1 xs) (y : S1x128x1.Idx) : ∃ pc ∈ (runC0 V c t h0 h1 xs).1, y ∈ pc.1.set :=
  View.cover_of_tiledL (runC0 V c t h0 h1 xs).1 S1x128x1.size (by sl_kernel_rfl) y
theorem coverC0_2 (c : Dev nD) (t : Fin cfg0.N) (h0 h1 xs) (y : S4x128x3136.Idx) : ∃ pc ∈ (runC0 V c t h0 h1 xs).2.1, y ∈ pc.1.set :=
  View.cover_of_tiledL (runC0 V c t h0 h1 xs).2.1 S4x128x3136.size (by sl_kernel_rfl) y
theorem coverC0_s (c : Dev nD) (t : Fin cfg0.N) (h0 h1 xs) (y : S1x128x1.Idx) : ∃ pc ∈ (runC0 V c t h0 h1 xs).2.2.1, y ∈ pc.1.set :=
  View.cover_of_tiledL (runC0 V c t h0 h1 xs).2.2.1 S1x128x1.size (by sl_kernel_rfl) y

/-! ## The accumulation -/

/-- What the sum output, the quantized-block output and the scratch column hold after the body at position `n`. -/
def outsAt0 (c : Dev nD) : (n : ℕ) → n < cfg0.N → Vec F S1x128x1 .f32 × Vec F S4x128x3136 .bf16 × Vec F S1x128x1 .f32
  | 0, hn => outsA0 V c ⟨0, hn⟩ (Nat.zero_mod _) (by show ¬(0 % 16 = 15); decide)
  | n + 1, hn =>
    if h0 : (n + 1) % 16 = 0 then
      if h1 : (n + 1) % 16 = 15 then False.elim (by omega)
      else outsA0 V c ⟨n + 1, hn⟩ h0 h1
    else
      if h1 : (n + 1) % 16 = 15 then outsC0 V c ⟨n + 1, hn⟩ h0 h1 (outsAt0 c n (Nat.lt_of_succ_lt hn)).2.2
      else outsB0 V c ⟨n + 1, hn⟩ h0 h1 (outsAt0 c n (Nat.lt_of_succ_lt hn)).2.2

theorem outsAt0_A (c : Dev nD) (t : Fin cfg0.N) (h0 : t.val % 16 = 0) (h1 : ¬t.val % 16 = 15) :
    outsAt0 V c t.val t.isLt = outsA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = outsB0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = outsC0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region invariant -/

/-- Before the first point the class invariant (every scoped buffer the region does not stage at anything, the
    generator register at some state); afterwards the same with the scratch column at what the point before left. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 2 t = owns (c : Thread nD τ) (ms0_2 t) fullShare ((dat0 V c).after 2 t) from by
    unfold Dat.leavesExact; rw [liveAt0_2 t], after0_2]
  by_cases h1 : t.val % 16 = 15
  · have h0 : ¬t.val % 16 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [outsAt0_C V c t h0 h1]
    unfold outsC0; (try dsimp only)
    rw [PhiS0_castSucc V c t, PhiS0_pos V c _ _ hz]
    iintro ⟨⟨⟨HS0, Hr⟩, Hg⟩, Ho, ⟨%d0, H0⟩, ⟨%d1, H1⟩, ⟨%d2, H2⟩⟩
    iapply ((runC0 V c t h0 h1 _).2.2.2 Set.univ _)
    isplitl [H0]; · iexact H0
    isplitl [H1]; · iexists _; iexact H1
    isplitl [H2]; · iexists _; iexact H2
    isplitl [HS0]; · iexact HS0
    iintro ⟨H0, ⟨%e1, H1⟩, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (coverC0_s V c t h0 h1 _)
        iexact Hr
      iexact Hg
    isplitl [Ho]; · iexact Ho
    isplitl [H0]; · iexact H0
    isplitl [H1]
    · unfold owns; iexists _; isplitr
      swap; · iexact H1
      ipureintro; exact View.read_writes_of_cover _ _ _ _ _ (coverC0_1 V c t h0 h1 _)
    unfold owns; iexists _; isplitr
    swap; · iexact H2
    ipureintro; exact View.read_writes_of_cover _ _ _ _ _ (coverC0_2 V c t h0 h1 _)
  · rw [Dat.leavesExact_idle (dat0 V c) 1 t (idleAt0_1 t (fun h => h1 ((hcond0_1 t).mp h))) (noFlush0_1 t (fun h => h1 ((hcond0_1 t).mp h)))]
    by_cases h0 : t.val % 16 = 0
    · rw [outsAt0_A V c t h0 h1]
      unfold outsA0; (try dsimp only)
      rw [PhiS0_castSucc V c t]
      have hΦ : PhiS0 V c t.val (Nat.le_of_lt t.isLt) ⊢ iprop(((∃ d, owns (c : Thread nD τ) scM0 fullShare d) ∗ rest0 c) ∗ (∃ r, prngReg c r)) := by
        by_cases hz : t.val = 0
        · rw [PhiS0_zero V c _ _ hz, PhiA0_eq]
        · rw [PhiS0_pos V c _ _ hz]
          iintro ⟨⟨HS0, Hr⟩, Hg⟩
          isplitl [HS0 Hr]
          · isplitl [HS0]; · iexists _; iexact HS0
            iexact Hr
          iexact Hg
      iintro ⟨HΦ, Ho, ⟨%d0, H0⟩, ⟨%d1, H1⟩, ⟨%d2, H2⟩⟩
      ihave HΦ' := hΦ $$ HΦ
      icases HΦ' with ⟨⟨HS0, Hr⟩, Hg⟩
      iapply ((runA0 V c t h0 h1).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA0_s V c t h0 h1)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverA0_2 V c t h0 h1)
    · have hz : t.val ≠ 0 := fun h => h0 (by rw [h])
      rw [outsAt0_B V c t h0 h1]
      unfold outsB0; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((runB0 V c t h0 h1 _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB0_s V c t h0 h1 _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverB0_2 V c t h0 h1 _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the scratch column's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, Hr⟩, Hg⟩
  isplitl [HS0 Hr]
  · isplitl [HS0]; · iexists _; iexact HS0
    iexact Hr
  iexact Hg

end Region0

end Cert.Kernel.Fr

end
-- ==== Proof.K.R1Base.lean ====
/-
  Region 1 (the per-channel sum of squared deviations): what its three control cases share.
  Same grid and same control as region 0: a scratch column of 128 partial sums, reset at the first batch block
  of a half, added to at every block, copied to the output column at the last. The body reads the quantized
  block and the column of means.
-/
import proofs.«177003_j180388626588_2_alg».proof.Proof.Gen.Kernel.Launch
import proofs.«177003_j180388626588_2_alg».proof.Proof.Gen.Kernel.Skeleton
import proofs.«177003_j180388626588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column of means is fetched only at the first block of a half; at the other points its buffer still holds
    the same block, the block index not having moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S1x128x1 .f32 := (Memref.whole cc1_stg2_0 : Memref sig .tc .vmem S1x128x1 .f32).view
abbrev ms1_0 (t : Fin cfg1.N) : Memref sig .tc .vmem S4x128x3136 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x1 .f32 := win1_2.stage (cfg1.slots t 2)
abbrev hs1_2 (t : Fin cfg1.N) : (ms1_2 t).IsWhole := hstage1_2 ((cfg1.slots t 2).cast nbuf1_2)
abbrev scM1 : Memref sig .tc .vmem S1x128x1 .f32 := Memref.whole cc1_scratch0
abbrev VS1 : View sig .tc .vmem S1x128x1 .f32 := scM1.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  rfl

end Cert.Kernel.Fr

end
-- ==== Proof.K.R1Runs.lean ====
/-
  Region 1: the body's run in each of its three control cases. Both inputs (the quantized block and the column
  of means) are handed back as found; the sum output is handed back untouched except at the last batch block.
-/
import proofs.«177003_j180388626588_2_alg».proof.Proof.K.R1Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First batch block of a half: the scratch column is reset, then the block's sums of squared deviations added. -/
noncomputable def kernelRun1_A (c : Dev nD) (i : grid1.Coords) (arg2 : Memref sig .tc .vmem S4x128x3136 .bf16) (harg2 : arg2.IsWhole) (arg3 : Memref sig .tc .vmem S1x128x1 .f32) (harg3 : arg3.IsWhole) (arg4 : Memref sig .tc .vmem S1x128x1 .f32) (harg4 : arg4.IsWhole) (arg5 : Memref sig .tc .vmem S1x128x1 .f32) (harg5 : arg5.IsWhole) (hc0 : cond1_0 i) (hc1 : ¬cond1_1 i)
    (x0 : Vec F S4x128x3136 .bf16) (x1 : Vec F S1x128x1 .f32) :
    { LS0 : List (View.Piece (Elt F) S1x128x1 .f32) //
      ∀ (xi2 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__var_kernel i arg2 harg2 arg3 harg3 arg4 harg4 arg5 harg5) K } := by
  refine ⟨?_, fun xi2 E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle batch block: the block's sums are added to the scratch column as the block before left it. -/
noncomputable def kernelRun1_B (c : Dev nD) (i : grid1.Coords) (arg2 : Memref sig .tc .vmem S4x128x3136 .bf16) (harg2 : arg2.IsWhole) (arg3 : Memref sig .tc .vmem S1x128x1 .f32) (harg3 : arg3.IsWhole) (arg4 : Memref sig .tc .vmem S1x128x1 .f32) (harg4 : arg4.IsWhole) (arg5 : Memref sig .tc .vmem S1x128x1 .f32) (harg5 : arg5.IsWhole) (hc0 : ¬cond1_0 i) (hc1 : ¬cond1_1 i)
    (x0 : Vec F S4x128x3136 .bf16) (x1 : Vec F S1x128x1 .f32) (xs0 : Vec F S1x128x1 .f32) :
    { LS0 : List (View.Piece (Elt F) S1x128x1 .f32) //
      ∀ (xi2 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__var_kernel i arg2 harg2 arg3 harg3 arg4 harg4 arg5 harg5) K } := by
  refine ⟨?_, fun xi2 E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Last batch block of a half: after the addition the scratch column is copied into the sum output. -/
noncomputable def kernelRun1_C (c : Dev nD) (i : grid1.Coords) (arg2 : Memref sig .tc .vmem S4x128x3136 .bf16) (harg2 : arg2.IsWhole) (arg3 : Memref sig .tc .vmem S1x128x1 .f32) (harg3 : arg3.IsWhole) (arg4 : Memref sig .tc .vmem S1x128x1 .f32) (harg4 : arg4.IsWhole) (arg5 : Memref sig .tc .vmem S1x128x1 .f32) (harg5 : arg5.IsWhole) (hc0 : ¬cond1_0 i) (hc1 : cond1_1 i)
    (x0 : Vec F S4x128x3136 .bf16) (x1 : Vec F S1x128x1 .f32) (xs0 : Vec F S1x128x1 .f32) :
    Σ' (L2 : List (View.Piece (Elt F) S1x128x1 .f32)), { LS0 : List (View.Piece (Elt F) S1x128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__var_kernel i arg2 harg2 arg3 harg3 arg4 harg4 arg5 harg5) K } := by
  refine ⟨?_, ?_, fun E K => ?run⟩
  case run =>
    simp only [cc1__var_kernel_eq_skeleton]; unfold cc1__var_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.R1Frame.lean ====
/-
  Region 1: the proof data of its pipeline, in the same shape as region 0's. What the sum output's staging buffer
  and the scratch column hold after each grid point is defined by recursion on the point; the invariant carries
  the scratch column; the body obligation is a case split on the point.
-/
import proofs.«177003_j180388626588_2_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def runA1 (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)
def runB1 (c : Dev nD) (t : Fin cfg1.N) (h0 : ¬t.val % 16 = 0) (h1 : ¬t.val % 16 = 15) (xs : Vec F S1x128x1 .f32) :=
  kernelRun1_B (F := F) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs
def runC1 (c : Dev nD) (t : Fin cfg1.N) (h0 : ¬t.val % 16 = 0) (h1 : t.val % 16 = 15) (xs : Vec F S1x128x1 .f32) :=
  kernelRun1_C (F := F) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs

/-- Placeholder contents of the sum output at a point that does not store into it (never consulted). -/
def idle1_2 : Vec F S1x128x1 .f32 := VO1_2.read (Elt F) (VO1_2.writes (Elt F) VO1_2.junk [])

/-- The sum output and the scratch column after a first-block point, -/
def outsA1 (c : Dev nD) (t : Fin cfg1.N) (h0 : t.val % 16 = 0) (h1 : ¬t.val % 16 = 15) : Vec F S1x128x1 .f32 × Vec F S1x128x1 .f32 :=
  (idle1_2, VS1.read (Elt F) (VS1.writes (Elt F) VS1.junk (runA1 V c t h0 h1).1))
/-- a middle point, -/
def outsB1 (c : Dev nD) (t : Fin cfg1.N) (h0 : ¬t.val % 16 = 0) (h1 : ¬t.val % 16 = 15) (xs : Vec F S1x128x1 .f32) : Vec F S1x128x1 .f32 × Vec F S1x128x1 .f32 :=
  (idle1_2, VS1.read (Elt F) (VS1.writes (Elt F) VS1.junk (runB1 V c t h0 h1 xs).1))
/-- a last-block point. -/
def outsC1 (c : Dev nD) (t : Fin cfg1.N) (h0 : ¬t.val % 16 = 0) (h1 : t.val % 16 = 15) (xs : Vec F S1x128x1 .f32) : Vec F S1x128x1 .f32 × Vec F S1x128x1 .f32 :=
  (VO1_2.read (Elt F) (VO1_2.writes (Elt F) VO1_2.junk (runC1 V c t h0 h1 xs).1),
    VS1.read (Elt F) (VS1.writes (Elt F) VS1.junk (runC1 V c t h0 h1 xs).2.1))

theorem coverA1_s (c : Dev nD) (t : Fin cfg1.N) (h0 h1) (y : S1x128x1.Idx) : ∃ pc ∈ (runA1 V c t h0 h1).1, y ∈ pc.1.set :=
  View.cover_of_tiledL (runA1 V c t h0 h1).1 S1x128x1.size (by sl_kernel_rfl) y
theorem coverB1_s (c : Dev nD) (t : Fin cfg1.N) (h0 h1 xs) (y : S1x128x1.Idx) : ∃ pc ∈ (runB1 V c t h0 h1 xs).1, y ∈ pc.1.set :=
  View.cover_of_tiledL (runB1 V c t h0 h1 xs).1 S1x128x1.size (by sl_kernel_rfl) y
theorem coverC1_2 (c : Dev nD) (t : Fin cfg1.N) (h0 h1 xs) (y : S1x128x1.Idx) : ∃ pc ∈ (runC1 V c t h0 h1 xs).1, y ∈ pc.1.set :=
  View.cover_of_tiledL (runC1 V c t h0 h1 xs).1 S1x128x1.size (by sl_kernel_rfl) y
theorem coverC1_s (c : Dev nD) (t : Fin cfg1.N) (h0 h1 xs) (y : S1x128x1.Idx) : ∃ pc ∈ (runC1 V c t h0 h1 xs).2.1, y ∈ pc.1.set :=
  View.cover_of_tiledL (runC1 V c t h0 h1 xs).2.1 S1x128x1.size (by sl_kernel_rfl) y

/-- What the sum output and the scratch column hold after the body at position `n`. -/
def outsAt1 (c : Dev nD) : (n : ℕ) → n < cfg1.N → Vec F S1x128x1 .f32 × Vec F S1x128x1 .f32
  | 0, hn => outsA1 V c ⟨0, hn⟩ (Nat.zero_mod _) (by show ¬(0 % 16 = 15); decide)
  | n + 1, hn =>
    if h0 : (n + 1) % 16 = 0 then
      if h1 : (n + 1) % 16 = 15 then False.elim (by omega)
      else outsA1 V c ⟨n + 1, hn⟩ h0 h1
    else
      if h1 : (n + 1) % 16 = 15 then outsC1 V c ⟨n + 1, hn⟩ h0 h1 (outsAt1 c n (Nat.lt_of_succ_lt hn)).2
      else outsB1 V c ⟨n + 1, hn⟩ h0 h1 (outsAt1 c n (Nat.lt_of_succ_lt hn)).2

theorem outsAt1_A (c : Dev nD) (t : Fin cfg1.N) (h0 : t.val % 16 = 0) (h1 : ¬t.val % 16 = 15) :
    outsAt1 V c t.val t.isLt = outsA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = outsB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = outsC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold outsC1; (try dsimp only)
    rw [PhiS1_castSucc V c t, PhiS1_pos V c _ _ hz]
    iintro ⟨⟨⟨HS0, Hr⟩, Hg⟩, Ho, ⟨%d0, H0⟩, ⟨%d1, H1⟩, ⟨%d2, H2⟩⟩
    iapply ((runC1 V c t h0 h1 _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (coverC1_s V c t h0 h1 _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (coverC1_2 V c t h0 h1 _)
  · rw [Dat.leavesExact_idle (dat1 V c) 2 t (idleAt1_2 t (fun h => h1 ((hcond1_1 t).mp h))) (noFlush1_2 t (fun h => h1 ((hcond1_1 t).mp h)))]
    by_cases h0 : t.val % 16 = 0
    · rw [outsAt1_A V c t h0 h1]
      unfold outsA1; (try dsimp only)
      rw [PhiS1_castSucc V c t]
      have hΦ : PhiS1 V c t.val (Nat.le_of_lt t.isLt) ⊢ iprop(((∃ d, owns (c : Thread nD τ) scM1 fullShare d) ∗ rest1 c) ∗ (∃ r, prngReg c r)) := by
        by_cases hz : t.val = 0
        · rw [PhiS1_zero V c _ _ hz, PhiA1_eq]
        · rw [PhiS1_pos V c _ _ hz]
          iintro ⟨⟨HS0, Hr⟩, Hg⟩
          isplitl [HS0 Hr]
          · isplitl [HS0]; · iexists _; iexact HS0
            iexact Hr
          iexact Hg
      iintro ⟨HΦ, Ho, ⟨%d0, H0⟩, ⟨%d1, H1⟩, ⟨%d2, H2⟩⟩
      ihave HΦ' := hΦ $$ HΦ
      icases HΦ' with ⟨⟨HS0, Hr⟩, Hg⟩
      iapply ((runA1 V c t h0 h1).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA1_s V c t h0 h1)
          iexact Hr
        iexact Hg
      isplitl [Ho]; · iexact Ho
      isplitl [H0]; · iexact H0
      isplitl [H1]; · iexact H1
      iexists _; iexact H2
    · have hz : t.val ≠ 0 := fun h => h0 (by rw [h])
      rw [outsAt1_B V c t h0 h1]
      unfold outsB1; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((runB1 V c t h0 h1 _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB1_s V c t h0 h1 _)
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, Hr⟩, Hg⟩
  isplitl [HS0 Hr]
  · isplitl [HS0]; · iexists _; iexact HS0
    iexact Hr
  iexact Hg

end Region1

end Cert.Kernel.Fr

end
-- ==== Proof.K.R2.lean ====
/-
  Region 2 (the normalization): one control case. At each of the 32 grid points the body reads a block of two
  batch rows of the quantized tensor and the four per-channel columns (mean, scale, gain, shift), and stores
  the normalized block whole. Nothing is carried between points.
-/
import proofs.«177003_j180388626588_2_alg».proof.Proof.Gen.Kernel.Launch
import proofs.«177003_j180388626588_2_alg».proof.Proof.Gen.Kernel.Skeleton
import proofs.«177003_j180388626588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

abbrev VO2_5 : View sig .tc .vmem S2x256x3136 .f32 := (Memref.whole cc2_stg5_0 : Memref sig .tc .vmem S2x256x3136 .f32).view
abbrev ms2_0 (t : Fin cfg2.N) : Memref sig .tc .vmem S2x256x3136 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x256x3136 .f32 := win2_5.stage (cfg2.slots t 5)
abbrev hs2_5 (t : Fin cfg2.N) : (ms2_5 t).IsWhole := hstage2_5 ((cfg2.slots t 5).cast nbuf2_5)

set_option maxHeartbeats 1000000 in
/-- The body on whole staging memrefs, the five inputs at their contents and the output at anything, runs to the
    continuation holding the inputs as they were and the output with its stores' pieces written. -/
noncomputable def kernelRun2 (c : Dev nD) (i : grid2.Coords) (arg1 : Memref sig .tc .vmem S2x256x3136 .bf16) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .bf16) (x1 x2 x3 x4 : Vec F S1x256x1 .f32) :
    { L5 : List (View.Piece (Elt F) S2x256x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__norm_kernel i arg1 harg1 arg2 harg2 arg3 harg3 arg4 harg4 arg5 harg5 arg6 harg6) K } := by
  refine ⟨?_, fun E K => ?run⟩
  case run =>
    simp only [cc2__norm_kernel_eq_skeleton]; unfold cc2__norm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

section Region2

variable (V : (c : Dev nD) → (b : Ref sig .tc) → Buf (Elt F) ((c : Thread nD τ).loc b))

/-- The body at point `t`, run on the point's five input blocks. -/
def run2 (c : Dev nD) (t : Fin cfg2.N) :=
  kernelRun2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

/-- What the output's staging buffer holds after the body at point `t`. -/
def out2_5 (c : Dev nD) (t : Fin cfg2.N) : Vec F S2x256x3136 .f32 :=
  VO2_5.read (Elt F) (VO2_5.writes (Elt F) VO2_5.junk (run2 V c t).1)

theorem cover2_5 (c : Dev nD) (t : Fin cfg2.N) (y : S2x256x3136.Idx) : ∃ pc ∈ (run2 V c t).1, y ∈ pc.1.set :=
  View.cover_of_tiledL (run2 V c t).1 S2x256x3136.size (by sl_kernel_rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold out2_5
  iintro ⟨HΦ, Ho, ⟨%d0, H0⟩, ⟨%d1, H1⟩, ⟨%d2, H2⟩, ⟨%d3, H3⟩, ⟨%d4, H4⟩, ⟨%d5, H5⟩⟩
  iapply ((run2 V c t).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_5 V c t)

theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.K.Run.lean ====
/-
  The whole run: @main as four stretches of host operations around the three regions. The contents of every
  unscoped buffer are followed from the launch memory through each stretch and each region; the run ends with
  every unscoped buffer at the last of these contents.
-/
import proofs.«177003_j180388626588_2_alg».proof.Proof.K.R0Frame
import proofs.«177003_j180388626588_2_alg».proof.Proof.K.R1Frame
import proofs.«177003_j180388626588_2_alg».proof.Proof.K.R2
import proofs.«177003_j180388626588_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the input (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- At region 0's exit: its arrays at what the pipeline leaves (an input as entered, an output's write-backs
    folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the mean is formed from the sums (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b

/-- At region 1's exit: its arrays at what the pipeline leaves (an input as entered, an output's write-backs
    folded), every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the variance, the scale, the gain and the shift columns are formed (region 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b

/-- At region 2's exit: its arrays at what the pipeline leaves (an input as entered, an output's write-backs
    folded), every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After the final reshape: the contents the program ends with. -/
abbrev W7 : Dev nD → Valuation τ sig (Elt F) := fun c => StableHlo.after hostOps3 (W6 m ρ c)

/-- A buffer that no host stretch writes and that is no array of any region ends as launched. -/
theorem W7_of_untouched (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rz (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the contents before it, left with them at
    the contents after it. Its arrays are split out of the unscoped buffers and put back at their exit contents; the
    generator register goes into the region invariant and comes back; nothing is owed; the kernel has no semaphore of its own. -/
def reg0 : Pipeline.RegionSeg (pcfgs (F := F)) adm (pdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ Pipeline.ΦA spec0 c := hout0 (E1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at their exit contents; the
    generator register goes into the region invariant and comes back; nothing is owed; the kernel has no semaphore of its own. -/
def reg1 : Pipeline.RegionSeg (pcfgs (F := F)) adm (pdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ Pipeline.ΦA spec1 c := hout1 (E3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it. Its arrays are split out of the unscoped buffers and put back at their exit contents; the
    generator register goes into the region invariant and comes back; nothing is owed; the kernel has no semaphore of its own. -/
def reg2 : Pipeline.RegionSeg (pcfgs (F := F)) adm (pdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (W5 m ρ c) ∗ Rz c)
  post c := iprop(StableHlo.held (c : Thread nD τ) (Pipeline.ucRefs τ sig) (W6 m ρ c) ∗ Rz c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (pdats m ρ 2 c).Φ (Fin.last _) ⊢ Pipeline.ΦA spec2 c := .rfl
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segments : List (Pipeline.Seg (pcfgs (F := F)) adm (pdats m ρ) () defs₀ Variants.none Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segments m ρ) := (main_chain c).trans (by chain_rfl)

set_option backward.isDefEq.respectTransparency.types false in
/-- From any memory with zero counters every weakly fair execution of @main terminates, nothing faulting, and every
    final state has every unscoped buffer of every core at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ Variants.none Lz lvz m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ Rz c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.Kernel.Fr

end
-- ==== Proof.KI.R1Base.lean ====
/-
  Region 1 (the per-channel sum of squared deviations): what its three control cases share.
  Same grid and same control as region 0: a scratch column of 128 partial sums, reset at the first batch block
  of a half, added to at every block, copied to the output column at the last. The body reads the quantized
  block and the column of means.
-/
import proofs.«177003_j180388626588_2_alg».proof.Proof.Gen.KernelIdeal.Launch
import proofs.«177003_j180388626588_2_alg».proof.Proof.Gen.KernelIdeal.Skeleton
import proofs.«177003_j180388626588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column of means is fetched only at the first block of a half; at the other points its buffer still holds
    the same block, the block index not having moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S1x128x1 .f32 := (Memref.whole cc1_stg2_0 : Memref sig .tc .vmem S1x128x1 .f32).view
abbrev ms1_0 (t : Fin cfg1.N) : Memref sig .tc .vmem S4x128x3136 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x1 .f32 := win1_2.stage (cfg1.slots t 2)
abbrev hs1_2 (t : Fin cfg1.N) : (ms1_2 t).IsWhole := hstage1_2 ((cfg1.slots t 2).cast nbuf1_2)
abbrev scM1 : Memref sig .tc .vmem S1x128x1 .f32 := Memref.whole cc1_scratch0
abbrev VS1 : View sig .tc .vmem S1x128x1 .f32 := scM1.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  rfl

end Cert.KernelIdeal.Fr

end
-- ==== Proof.KI.R1Runs.lean ====
/-
  Region 1: the body's run in each of its three control cases. Both inputs (the quantized block and the column
  of means) are handed back as found; the sum output is handed back untouched except at the last batch block.
-/
import proofs.«177003_j180388626588_2_alg».proof.Proof.KI.R1Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First batch block of a half: the scratch column is reset, then the block's sums of squared deviations added. -/
noncomputable def kernelRun1_A (c : Dev nD) (i : grid1.Coords) (arg2 : Memref sig .tc .vmem S4x128x3136 .bf16) (harg2 : arg2.IsWhole) (arg3 : Memref sig .tc .vmem S1x128x1 .f32) (harg3 : arg3.IsWhole) (arg4 : Memref sig .tc .vmem S1x128x1 .f32) (harg4 : arg4.IsWhole) (arg5 : Memref sig .tc .vmem S1x128x1 .f32) (harg5 : arg5.IsWhole) (hc0 : cond1_0 i) (hc1 : ¬cond1_1 i)
    (x0 : Vec F S4x128x3136 .bf16) (x1 : Vec F S1x128x1 .f32) :
    { LS0 : List (View.Piece (Elt F) S1x128x1 .f32) //
      ∀ (xi2 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__var_kernel i arg2 harg2 arg3 harg3 arg4 harg4 arg5 harg5) K } := by
  refine ⟨?_, fun xi2 E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle batch block: the block's sums are added to the scratch column as the block before left it. -/
noncomputable def kernelRun1_B (c : Dev nD) (i : grid1.Coords) (arg2 : Memref sig .tc .vmem S4x128x3136 .bf16) (harg2 : arg2.IsWhole) (arg3 : Memref sig .tc .vmem S1x128x1 .f32) (harg3 : arg3.IsWhole) (arg4 : Memref sig .tc .vmem S1x128x1 .f32) (harg4 : arg4.IsWhole) (arg5 : Memref sig .tc .vmem S1x128x1 .f32) (harg5 : arg5.IsWhole) (hc0 : ¬cond1_0 i) (hc1 : ¬cond1_1 i)
    (x0 : Vec F S4x128x3136 .bf16) (x1 : Vec F S1x128x1 .f32) (xs0 : Vec F S1x128x1 .f32) :
    { LS0 : List (View.Piece (Elt F) S1x128x1 .f32) //
      ∀ (xi2 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__var_kernel i arg2 harg2 arg3 harg3 arg4 harg4 arg5 harg5) K } := by
  refine ⟨?_, fun xi2 E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Last batch block of a half: after the addition the scratch column is copied into the sum output. -/
noncomputable def kernelRun1_C (c : Dev nD) (i : grid1.Coords) (arg2 : Memref sig .tc .vmem S4x128x3136 .bf16) (harg2 : arg2.IsWhole) (arg3 : Memref sig .tc .vmem S1x128x1 .f32) (harg3 : arg3.IsWhole) (arg4 : Memref sig .tc .vmem S1x128x1 .f32) (harg4 : arg4.IsWhole) (arg5 : Memref sig .tc .vmem S1x128x1 .f32) (harg5 : arg5.IsWhole) (hc0 : ¬cond1_0 i) (hc1 : cond1_1 i)
    (x0 : Vec F S4x128x3136 .bf16) (x1 : Vec F S1x128x1 .f32) (xs0 : Vec F S1x128x1 .f32) :
    Σ' (L2 : List (View.Piece (Elt F) S1x128x1 .f32)), { LS0 : List (View.Piece (Elt F) S1x128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__var_kernel i arg2 harg2 arg3 harg3 arg4 harg4 arg5 harg5) K } := by
  refine ⟨?_, ?_, fun E K => ?run⟩
  case run =>
    simp only [cc1__var_kernel_eq_skeleton]; unfold cc1__var_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.R1Frame.lean ====
/-
  Region 1: the proof data of its pipeline, in the same shape as region 0's. What the sum output's staging buffer
  and the scratch column hold after each grid point is defined by recursion on the point; the invariant carries
  the scratch column; the body obligation is a case split on the point.
-/
import proofs.«177003_j180388626588_2_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def runA1 (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)
def runB1 (c : Dev nD) (t : Fin cfg1.N) (h0 : ¬t.val % 16 = 0) (h1 : ¬t.val % 16 = 15) (xs : Vec F S1x128x1 .f32) :=
  kernelRun1_B (F := F) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs
def runC1 (c : Dev nD) (t : Fin cfg1.N) (h0 : ¬t.val % 16 = 0) (h1 : t.val % 16 = 15) (xs : Vec F S1x128x1 .f32) :=
  kernelRun1_C (F := F) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs

/-- Placeholder contents of the sum output at a point that does not store into it (never consulted). -/
def idle1_2 : Vec F S1x128x1 .f32 := VO1_2.read (Elt F) (VO1_2.writes (Elt F) VO1_2.junk [])

/-- The sum output and the scratch column after a first-block point, -/
def outsA1 (c : Dev nD) (t : Fin cfg1.N) (h0 : t.val % 16 = 0) (h1 : ¬t.val % 16 = 15) : Vec F S1x128x1 .f32 × Vec F S1x128x1 .f32 :=
  (idle1_2, VS1.read (Elt F) (VS1.writes (Elt F) VS1.junk (runA1 V c t h0 h1).1))
/-- a middle point, -/
def outsB1 (c : Dev nD) (t : Fin cfg1.N) (h0 : ¬t.val % 16 = 0) (h1 : ¬t.val % 16 = 15) (xs : Vec F S1x128x1 .f32) : Vec F S1x128x1 .f32 × Vec F S1x128x1 .f32 :=
  (idle1_2, VS1.read (Elt F) (VS1.writes (Elt F) VS1.junk (runB1 V c t h0 h1 xs).1))
/-- a last-block point. -/
def outsC1 (c : Dev nD) (t : Fin cfg1.N) (h0 : ¬t.val % 16 = 0) (h1 : t.val % 16 = 15) (xs : Vec F S1x128x1 .f32) : Vec F S1x128x1 .f32 × Vec F S1x128x1 .f32 :=
  (VO1_2.read (Elt F) (VO1_2.writes (Elt F) VO1_2.junk (runC1 V c t h0 h1 xs).1),
    VS1.read (Elt F) (VS1.writes (Elt F) VS1.junk (runC1 V c t h0 h1 xs).2.1))

theorem coverA1_s (c : Dev nD) (t : Fin cfg1.N) (h0 h1) (y : S1x128x1.Idx) : ∃ pc ∈ (runA1 V c t h0 h1).1, y ∈ pc.1.set :=
  View.cover_of_tiledL (runA1 V c t h0 h1).1 S1x128x1.size (by sl_kernel_rfl) y
theorem coverB1_s (c : Dev nD) (t : Fin cfg1.N) (h0 h1 xs) (y : S1x128x1.Idx) : ∃ pc ∈ (runB1 V c t h0 h1 xs).1, y ∈ pc.1.set :=
  View.cover_of_tiledL (runB1 V c t h0 h1 xs).1 S1x128x1.size (by sl_kernel_rfl) y
theorem coverC1_2 (c : Dev nD) (t : Fin cfg1.N) (h0 h1 xs) (y : S1x128x1.Idx) : ∃ pc ∈ (runC1 V c t h0 h1 xs).1, y ∈ pc.1.set :=
  View.cover_of_tiledL (runC1 V c t h0 h1 xs).1 S1x128x1.size (by sl_kernel_rfl) y
theorem coverC1_s (c : Dev nD) (t : Fin cfg1.N) (h0 h1 xs) (y : S1x128x1.Idx) : ∃ pc ∈ (runC1 V c t h0 h1 xs).2.1, y ∈ pc.1.set :=
  View.cover_of_tiledL (runC1 V c t h0 h1 xs).2.1 S1x128x1.size (by sl_kernel_rfl) y

/-- What the sum output and the scratch column hold after the body at position `n`. -/
def outsAt1 (c : Dev nD) : (n : ℕ) → n < cfg1.N → Vec F S1x128x1 .f32 × Vec F S1x128x1 .f32
  | 0, hn => outsA1 V c ⟨0, hn⟩ (Nat.zero_mod _) (by show ¬(0 % 16 = 15); decide)
  | n + 1, hn =>
    if h0 : (n + 1) % 16 = 0 then
      if h1 : (n + 1) % 16 = 15 then False.elim (by omega)
      else outsA1 V c ⟨n + 1, hn⟩ h0 h1
    else
      if h1 : (n + 1) % 16 = 15 then outsC1 V c ⟨n + 1, hn⟩ h0 h1 (outsAt1 c n (Nat.lt_of_succ_lt hn)).2
      else outsB1 V c ⟨n + 1, hn⟩ h0 h1 (outsAt1 c n (Nat.lt_of_succ_lt hn)).2

theorem outsAt1_A (c : Dev nD) (t : Fin cfg1.N) (h0 : t.val % 16 = 0) (h1 : ¬t.val % 16 = 15) :
    outsAt1 V c t.val t.isLt = outsA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = outsB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = outsC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold outsC1; (try dsimp only)
    rw [PhiS1_castSucc V c t, PhiS1_pos V c _ _ hz]
    iintro ⟨⟨⟨HS0, Hr⟩, Hg⟩, Ho, ⟨%d0, H0⟩, ⟨%d1, H1⟩, ⟨%d2, H2⟩⟩
    iapply ((runC1 V c t h0 h1 _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (coverC1_s V c t h0 h1 _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (coverC1_2 V c t h0 h1 _)
  · rw [Dat.leavesExact_idle (dat1 V c) 2 t (idleAt1_2 t (fun h => h1 ((hcond1_1 t).mp h))) (noFlush1_2 t (fun h => h1 ((hcond1_1 t).mp h)))]
    by_cases h0 : t.val % 16 = 0
    · rw [outsAt1_A V c t h0 h1]
      unfold outsA1; (try dsimp only)
      rw [PhiS1_castSucc V c t]
      have hΦ : PhiS1 V c t.val (Nat.le_of_lt t.isLt) ⊢ iprop(((∃ d, owns (c : Thread nD τ) scM1 fullShare d) ∗ rest1 c) ∗ (∃ r, prngReg c r)) := by
        by_cases hz : t.val = 0
        · rw [PhiS1_zero V c _ _ hz, PhiA1_eq]
        · rw [PhiS1_pos V c _ _ hz]
          iintro ⟨⟨HS0, Hr⟩, Hg⟩
          isplitl [HS0 Hr]
          · isplitl [HS0]; · iexists _; iexact HS0
            iexact Hr
          iexact Hg
      iintro ⟨HΦ, Ho, ⟨%d0, H0⟩, ⟨%d1, H1⟩, ⟨%d2, H2⟩⟩
      ihave HΦ' := hΦ $$ HΦ
      icases HΦ' with ⟨⟨HS0, Hr⟩, Hg⟩
      iapply ((runA1 V c t h0 h1).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA1_s V c t h0 h1)
          iexact Hr
        iexact Hg
      isplitl [Ho]; · iexact Ho
      isplitl [H0]; · iexact H0
      isplitl [H1]; · iexact H1
      iexists _; iexact H2
    · have hz : t.val ≠ 0 := fun h => h0 (by rw [h])
      rw [outsAt1_B V c t h0 h1]
      unfold outsB1; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((runB1 V c t h0 h1 _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB1_s V c t h0 h1 _)
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, Hr⟩, Hg⟩
  isplitl [HS0 Hr]
  · isplitl [HS0]; · iexists _; iexact HS0
    iexact Hr
  iexact Hg

end Region1

end Cert.KernelIdeal.Fr

end
-- ==== Proof.KI.R2.lean ====
/-
  Region 2 (the normalization): one control case. At each of the 32 grid points the body reads a block of two
  batch rows of the quantized tensor and the four per-channel columns (mean, scale, gain, shift), and stores
  the normalized block whole. Nothing is carried between points.
-/
import proofs.«177003_j180388626588_2_alg».proof.Proof.Gen.KernelIdeal.Launch
import proofs.«177003_j180388626588_2_alg».proof.Proof.Gen.KernelIdeal.Skeleton
import proofs.«177003_j180388626588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

abbrev VO2_5 : View sig .tc .vmem S2x256x3136 .f32 := (Memref.whole cc2_stg5_0 : Memref sig .tc .vmem S2x256x3136 .f32).view
abbrev ms2_0 (t : Fin cfg2.N) : Memref sig .tc .vmem S2x256x3136 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x256x3136 .f32 := win2_5.stage (cfg2.slots t 5)
abbrev hs2_5 (t : Fin cfg2.N) : (ms2_5 t).IsWhole := hstage2_5 ((cfg2.slots t 5).cast nbuf2_5)

set_option maxHeartbeats 1000000 in
/-- The body on whole staging memrefs, the five inputs at their contents and the output at anything, runs to the
    continuation holding the inputs as they were and the output with its stores' pieces written. -/
noncomputable def kernelRun2 (c : Dev nD) (i : grid2.Coords) (arg1 : Memref sig .tc .vmem S2x256x3136 .bf16) (harg1 : arg1.IsWhole) (arg2 : Memref sig .tc .vmem S1x256x1 .f32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S2x256x3136 .f32) (harg6 : arg6.IsWhole)
    (x0 : Vec F S2x256x3136 .bf16) (x1 x2 x3 x4 : Vec F S1x256x1 .f32) :
    { L5 : List (View.Piece (Elt F) S2x256x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__norm_kernel i arg1 harg1 arg2 harg2 arg3 harg3 arg4 harg4 arg5 harg5 arg6 harg6) K } := by
  refine ⟨?_, fun E K => ?run⟩
  case run =>
    simp only [cc2__norm_kernel_eq_skeleton]; unfold cc2__norm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

section Region2

variable (V : (c : Dev nD) → (b : Ref sig .tc) → Buf (Elt F) ((c : Thread nD τ).loc b))

/-- The body at point `t`, run on the point's five input blocks. -/
def run2 (c : Dev nD) (t : Fin cfg2.N) :=
  kernelRun2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

/-- What the output's staging buffer holds after the body at point `t`. -/
def out2_5 (c : Dev nD) (t : Fin cfg2.N) : Vec F S2x256x3136 .f32 :=
  VO2_5.read (Elt F) (VO2_5.writes (Elt F) VO2_5.junk (run2 V c t).1)

theorem cover2_5 (c : Dev nD) (t : Fin cfg2.N) (y : S2x256x3136.Idx) : ∃ pc ∈ (run2 V c t).1, y ∈ pc.1.set :=
  View.cover_of_tiledL (run2 V c t).1 S2x256x3136.size (by sl_kernel_rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold out2_5
  iintro ⟨HΦ, Ho, ⟨%d0, H0⟩, ⟨%d1, H1⟩, ⟨%d2, H2⟩, ⟨%d3, H3⟩, ⟨%d4, H4⟩, ⟨%d5, H5⟩⟩
  iapply ((run2 V c t).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_5 V c t)

theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KI.R0Base.lean ====
/-
  Region 0 (the per-channel sum): what its three control cases share.
  The grid is 2 x 16: the first coordinate picks a half of the 256 channels, the second walks the 64 batch
  rows four at a time. A scratch column of 128 partial sums is reset at the first batch block of a half,
  added to at every block, and copied to the output column at the last block.
-/
import proofs.«177003_j180388626588_2_alg».proof.Proof.Gen.KernelIdeal.Launch
import proofs.«177003_j180388626588_2_alg».proof.Proof.Gen.KernelIdeal.Skeleton
import proofs.«177003_j180388626588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two conditions, decided over the grid -/

/-- "this is the first batch block": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "this is the last batch block": the second grid coordinate is fifteen. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_2 : ∀ t : Fin cfg0.N, cfg0.idle 2 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1x128x1 .f32 := (Memref.whole cc0_stg1_0 : Memref sig .tc .vmem S1x128x1 .f32).view
abbrev VO0_2 : View sig .tc .vmem S4x128x3136 .bf16 := (Memref.whole cc0_stg2_0 : Memref sig .tc .vmem S4x128x3136 .bf16).view
abbrev ms0_0 (t : Fin cfg0.N) : Memref sig .tc .vmem S4x128x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128x3136 .bf16 := win0_2.stage (cfg0.slots t 2)
abbrev hs0_2 (t : Fin cfg0.N) : (ms0_2 t).IsWhole := hstage0_2 ((cfg0.slots t 2).cast nbuf0_2)
/-- The scratch column of partial sums. -/
abbrev scM0 : Memref sig .tc .vmem S1x128x1 .f32 := Memref.whole cc0_scratch0
abbrev VS0 : View sig .tc .vmem S1x128x1 .f32 := scM0.view

/-- The scoped buffers the region does not stage, other than the scratch column: carried through unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch column split out as a memref owned at some contents. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]
  rfl

end Cert.KernelIdeal.Fr

end
-- ==== Proof.KI.R0Runs.lean ====
/-
  Region 0: the body's run in each of its three control cases. Each run owns the input block, hands an
  output it does not store into back untouched, and ends with the stores' pieces written into the buffers
  it did store into; the pieces are found by running the body.
-/
import proofs.«177003_j180388626588_2_alg».proof.Proof.KI.R0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First batch block of a half: the scratch column is reset and the block's sums added; the quantized block is stored;
    the sum output is left alone. -/
noncomputable def kernelRun0_A (c : Dev nD) (i : grid0.Coords) (arg2 : Memref sig .tc .vmem S4x128x3136 .f32) (harg2 : arg2.IsWhole) (arg3 : Memref sig .tc .vmem S1x128x1 .f32) (harg3 : arg3.IsWhole) (arg4 : Memref sig .tc .vmem S4x128x3136 .bf16) (harg4 : arg4.IsWhole) (arg5 : Memref sig .tc .vmem S1x128x1 .f32) (harg5 : arg5.IsWhole) (hc0 : cond0_0 i) (hc1 : ¬cond0_1 i)
    (x0 : Vec F S4x128x3136 .f32) :
    Σ' (L2 : List (View.Piece (Elt F) S4x128x3136 .bf16)), { LS0 : List (View.Piece (Elt F) S1x128x1 .f32) //
      ∀ (xi1 : Vec F S1x128x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- A middle batch block: the block's sums are added to the scratch column as the block before left it. -/
noncomputable def kernelRun0_B (c : Dev nD) (i : grid0.Coords) (arg2 : Memref sig .tc .vmem S4x128x3136 .f32) (harg2 : arg2.IsWhole) (arg3 : Memref sig .tc .vmem S1x128x1 .f32) (harg3 : arg3.IsWhole) (arg4 : Memref sig .tc .vmem S4x128x3136 .bf16) (harg4 : arg4.IsWhole) (arg5 : Memref sig .tc .vmem S1x128x1 .f32) (harg5 : arg5.IsWhole) (hc0 : ¬cond0_0 i) (hc1 : ¬cond0_1 i)
    (x0 : Vec F S4x128x3136 .f32) (xs0 : Vec F S1x128x1 .f32) :
    Σ' (L2 : List (View.Piece (Elt F) S4x128x3136 .bf16)), { LS0 : List (View.Piece (Elt F) S1x128x1 .f32) //
      ∀ (xi1 : Vec F S1x128x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- Last batch block of a half: after the addition the scratch column is copied into the sum output. -/
noncomputable def kernelRun0_C (c : Dev nD) (i : grid0.Coords) (arg2 : Memref sig .tc .vmem S4x128x3136 .f32) (harg2 : arg2.IsWhole) (arg3 : Memref sig .tc .vmem S1x128x1 .f32) (harg3 : arg3.IsWhole) (arg4 : Memref sig .tc .vmem S4x128x3136 .bf16) (harg4 : arg4.IsWhole) (arg5 : Memref sig .tc .vmem S1x128x1 .f32) (harg5 : arg5.IsWhole) (hc0 : ¬cond0_0 i) (hc1 : cond0_1 i)
    (x0 : Vec F S4x128x3136 .f32) (xs0 : Vec F S1x128x1 .f32) :
    Σ' (L1 : List (View.Piece (Elt F) S1x128x1 .f32)) (L2 : List (View.Piece (Elt F) S4x128x3136 .bf16)), { LS0 : List (View.Piece (Elt F) S1x128x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.KernelIdeal.Fr

end
-- ==== Proof.KI.R0Frame.lean ====
/-
  Region 0: the proof data of its pipeline. What the two outputs' staging buffers and the scratch column hold
  after each grid point is defined by recursion on the point (the case the point is in, run on the point's
  input block and on the scratch column as the point before left it); the region invariant carries the
  scratch column at those contents from point to point; the body obligation is a case split on the point.
-/
import proofs.«177003_j180388626588_2_alg».proof.Proof.KI.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The three cases at a grid point -/

/-- The first-block case at point `t`, run on the point's input block. -/
def runA0 (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t)
/-- The middle case at point `t`, on the scratch column `xs`. -/
def runB0 (c : Dev nD) (t : Fin cfg0.N) (h0 : ¬t.val % 16 = 0) (h1 : ¬t.val % 16 = 15) (xs : Vec F S1x128x1 .f32) :=
  kernelRun0_B (F := F) c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) xs
/-- The last-block case at point `t`, on the scratch column `xs`. -/
def runC0 (c : Dev nD) (t : Fin cfg0.N) (h0 : ¬t.val % 16 = 0) (h1 : t.val % 16 = 15) (xs : Vec F S1x128x1 .f32) :=
  kernelRun0_C (F := F) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) xs

/-- Placeholder contents of the sum output at a point that does not store into it (never consulted: the window is idle
    there and not written back). -/
def idle0_1 : Vec F S1x128x1 .f32 := VO0_1.read (Elt F) (VO0_1.writes (Elt F) VO0_1.junk [])

/-- The sum output, the quantized block and the scratch column after a first-block point. -/
def outsA0 (c : Dev nD) (t : Fin cfg0.N) (h0 : t.val % 16 = 0) (h1 : ¬t.val % 16 = 15) :
    Vec F S1x128x1 .f32 × Vec F S4x128x3136 .bf16 × Vec F S1x128x1 .f32 :=
  (idle0_1, VO0_2.read (Elt F) (VO0_2.writes (Elt F) VO0_2.junk (runA0 V c t h0 h1).1),
    VS0.read (Elt F) (VS0.writes (Elt F) VS0.junk (runA0 V c t h0 h1).2.1))
/-- after a middle point, -/
def outsB0 (c : Dev nD) (t : Fin cfg0.N) (h0 : ¬t.val % 16 = 0) (h1 : ¬t.val % 16 = 15) (xs : Vec F S1x128x1 .f32) :
    Vec F S1x128x1 .f32 × Vec F S4x128x3136 .bf16 × Vec F S1x128x1 .f32 :=
  (idle0_1, VO0_2.read (Elt F) (VO0_2.writes (Elt F) VO0_2.junk (runB0 V c t h0 h1 xs).1),
    VS0.read (Elt F) (VS0.writes (Elt F) VS0.junk (runB0 V c t h0 h1 xs).2.1))
/-- after a last-block point. -/
def outsC0 (c : Dev nD) (t : Fin cfg0.N) (h0 : ¬t.val % 16 = 0) (h1 : t.val % 16 = 15) (xs : Vec F S1x128x1 .f32) :
    Vec F S1x128x1 .f32 × Vec F S4x128x3136 .bf16 × Vec F S1x128x1 .f32 :=
  (VO0_1.read (Elt F) (VO0_1.writes (Elt F) VO0_1.junk (runC0 V c t h0 h1 xs).1),
    VO0_2.read (Elt F) (VO0_2.writes (Elt F) VO0_2.junk (runC0 V c t h0 h1 xs).2.1),
    VS0.read (Elt F) (VS0.writes (Elt F) VS0.junk (runC0 V c t h0 h1 xs).2.2.1))

/-! ## The stores of each case cover the buffers they go to -/

theorem coverA0_2 (c : Dev nD) (t : Fin cfg0.N) (h0 h1) (y : S4x128x3136.Idx) : ∃ pc ∈ (runA0 V c t h0 h1).1, y ∈ pc.1.set :=
  View.cover_of_tiledL (runA0 V c t h0 h1).1 S4x128x3136.size (by sl_kernel_rfl) y
theorem coverA0_s (c : Dev nD) (t : Fin cfg0.N) (h0 h1) (y : S1x128x1.Idx) : ∃ pc ∈ (runA0 V c t h0 h1).2.1, y ∈ pc.1.set :=
  View.cover_of_tiledL (runA0 V c t h0 h1).2.1 S1x128x1.size (by sl_kernel_rfl) y
theorem coverB0_2 (c : Dev nD) (t : Fin cfg0.N) (h0 h1 xs) (y : S4x128x3136.Idx) : ∃ pc ∈ (runB0 V c t h0 h1 xs).1, y ∈ pc.1.set :=
  View.cover_of_tiledL (runB0 V c t h0 h1 xs).1 S4x128x3136.size (by sl_kernel_rfl) y
theorem coverB0_s (c : Dev nD) (t : Fin cfg0.N) (h0 h1 xs) (y : S1x128x1.Idx) : ∃ pc ∈ (runB0 V c t h0 h1 xs).2.1, y ∈ pc.1.set :=
  View.cover_of_tiledL (runB0 V c t h0 h1 xs).2.1 S1x128x1.size (by sl_kernel_rfl) y
theorem coverC0_1 (c : Dev nD) (t : Fin cfg0.N) (h0 h1 xs) (y : S1x128x1.Idx) : ∃ pc ∈ (runC0 V c t h0 h1 xs).1, y ∈ pc.1.set :=
  View.cover_of_tiledL (runC0 V c t h0 h1 xs).1 S1x128x1.size (by sl_kernel_rfl) y
theorem coverC0_2 (c : Dev nD) (t : Fin cfg0.N) (h0 h1 xs) (y : S4x128x3136.Idx) : ∃ pc ∈ (runC0 V c t h0 h1 xs).2.1, y ∈ pc.1.set :=
  View.cover_of_tiledL (runC0 V c t h0 h1 xs).2.1 S4x128x3136.size (by sl_kernel_rfl) y
theorem coverC0_s (c : Dev nD) (t : Fin cfg0.N) (h0 h1 xs) (y : S1x128x1.Idx) : ∃ pc ∈ (runC0 V c t h0 h1 xs).2.2.1, y ∈ pc.1.set :=
  View.cover_of_tiledL (runC0 V c t h0 h1 xs).2.2.1 S1x128x1.size (by sl_kernel_rfl) y

/-! ## The accumulation -/

/-- What the sum output, the quantized-block output and the scratch column hold after the body at position `n`. -/
def outsAt0 (c : Dev nD) : (n : ℕ) → n < cfg0.N → Vec F S1x128x1 .f32 × Vec F S4x128x3136 .bf16 × Vec F S1x128x1 .f32
  | 0, hn => outsA0 V c ⟨0, hn⟩ (Nat.zero_mod _) (by show ¬(0 % 16 = 15); decide)
  | n + 1, hn =>
    if h0 : (n + 1) % 16 = 0 then
      if h1 : (n + 1) % 16 = 15 then False.elim (by omega)
      else outsA0 V c ⟨n + 1, hn⟩ h0 h1
    else
      if h1 : (n + 1) % 16 = 15 then outsC0 V c ⟨n + 1, hn⟩ h0 h1 (outsAt0 c n (Nat.lt_of_succ_lt hn)).2.2
      else outsB0 V c ⟨n + 1, hn⟩ h0 h1 (outsAt0 c n (Nat.lt_of_succ_lt hn)).2.2

theorem outsAt0_A (c : Dev nD) (t : Fin cfg0.N) (h0 : t.val % 16 = 0) (h1 : ¬t.val % 16 = 15) :
    outsAt0 V c t.val t.isLt = outsA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = outsB0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = outsC0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region invariant -/

/-- Before the first point the class invariant (every scoped buffer the region does not stage at anything, the
    generator register at some state); afterwards the same with the scratch column at what the point before left. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 2 t = owns (c : Thread nD τ) (ms0_2 t) fullShare ((dat0 V c).after 2 t) from by
    unfold Dat.leavesExact; rw [liveAt0_2 t], after0_2]
  by_cases h1 : t.val % 16 = 15
  · have h0 : ¬t.val % 16 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [outsAt0_C V c t h0 h1]
    unfold outsC0; (try dsimp only)
    rw [PhiS0_castSucc V c t, PhiS0_pos V c _ _ hz]
    iintro ⟨⟨⟨HS0, Hr⟩, Hg⟩, Ho, ⟨%d0, H0⟩, ⟨%d1, H1⟩, ⟨%d2, H2⟩⟩
    iapply ((runC0 V c t h0 h1 _).2.2.2 Set.univ _)
    isplitl [H0]; · iexact H0
    isplitl [H1]; · iexists _; iexact H1
    isplitl [H2]; · iexists _; iexact H2
    isplitl [HS0]; · iexact HS0
    iintro ⟨H0, ⟨%e1, H1⟩, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (coverC0_s V c t h0 h1 _)
        iexact Hr
      iexact Hg
    isplitl [Ho]; · iexact Ho
    isplitl [H0]; · iexact H0
    isplitl [H1]
    · unfold owns; iexists _; isplitr
      swap; · iexact H1
      ipureintro; exact View.read_writes_of_cover _ _ _ _ _ (coverC0_1 V c t h0 h1 _)
    unfold owns; iexists _; isplitr
    swap; · iexact H2
    ipureintro; exact View.read_writes_of_cover _ _ _ _ _ (coverC0_2 V c t h0 h1 _)
  · rw [Dat.leavesExact_idle (dat0 V c) 1 t (idleAt0_1 t (fun h => h1 ((hcond0_1 t).mp h))) (noFlush0_1 t (fun h => h1 ((hcond0_1 t).mp h)))]
    by_cases h0 : t.val % 16 = 0
    · rw [outsAt0_A V c t h0 h1]
      unfold outsA0; (try dsimp only)
      rw [PhiS0_castSucc V c t]
      have hΦ : PhiS0 V c t.val (Nat.le_of_lt t.isLt) ⊢ iprop(((∃ d, owns (c : Thread nD τ) scM0 fullShare d) ∗ rest0 c) ∗ (∃ r, prngReg c r)) := by
        by_cases hz : t.val = 0
        · rw [PhiS0_zero V c _ _ hz, PhiA0_eq]
        · rw [PhiS0_pos V c _ _ hz]
          iintro ⟨⟨HS0, Hr⟩, Hg⟩
          isplitl [HS0 Hr]
          · isplitl [HS0]; · iexists _; iexact HS0
            iexact Hr
          iexact Hg
      iintro ⟨HΦ, Ho, ⟨%d0, H0⟩, ⟨%d1, H1⟩, ⟨%d2, H2⟩⟩
      ihave HΦ' := hΦ $$ HΦ
      icases HΦ' with ⟨⟨HS0, Hr⟩, Hg⟩
      iapply ((runA0 V c t h0 h1).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA0_s V c t h0 h1)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverA0_2 V c t h0 h1)
    · have hz : t.val ≠ 0 := fun h => h0 (by rw [h])
      rw [outsAt0_B V c t h0 h1]
      unfold outsB0; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((runB0 V c t h0 h1 _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB0_s V c t h0 h1 _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverB0_2 V c t h0 h1 _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the scratch column's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, Hr⟩, Hg⟩
  isplitl [HS0 Hr]
  · isplitl [HS0]; · iexists _; iexact HS0
    iexact Hr
  iexact Hg

end Region0

end Cert.KernelIdeal.Fr

end
-- ==== Proof.KI.V0Pieces.lean ====
/-
  Region 0: what each control case's stores leave, as values. The quantized-block output holds the input block
  rounded to bf16; the scratch column holds the block's channel sums added to what it held before (to zero at
  the first batch block of a half); at the last batch block the sum output holds the scratch column.
-/
import proofs.«177003_j180388626588_2_alg».proof.Proof.KI.R0Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

section Region0
variable (V : (c : Dev nD) → (b : Ref sig .tc) → Buf (Elt F) ((c : Thread nD τ).loc b))

theorem outsA0_scr (c : Dev nD) (t : Fin cfg0.N) (h0 : t.val % 16 = 0) (h1 : ¬t.val % 16 = 15) :
    (outsA0 V c t h0 h1).2.2 = k0_pay4 (iblk0 V c 0 t) (k0_pay1 (F := F)) := by
  unfold outsA0; dsimp only
  rw [View.read_writes_eq_canon _ _ _ (coverA0_s V c t h0 h1)]
  unfold runA0 kernelRun0_A; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]

theorem outsA0_xq (c : Dev nD) (t : Fin cfg0.N) (h0 : t.val % 16 = 0) (h1 : ¬t.val % 16 = 15) :
    (outsA0 V c t h0 h1).2.1 = k0_pay3 (iblk0 V c 0 t) := by
  unfold outsA0; dsimp only
  rw [View.read_writes_eq_canon _ _ _ (coverA0_2 V c t h0 h1)]
  unfold runA0 kernelRun0_A; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]

theorem outsB0_scr (c : Dev nD) (t : Fin cfg0.N) (h0 : ¬t.val % 16 = 0) (h1 : ¬t.val % 16 = 15) (xs : Vec F S1x128x1 .f32) :
    (outsB0 V c t h0 h1 xs).2.2 = k0_pay4 (iblk0 V c 0 t) xs := by
  unfold outsB0; dsimp only
  rw [View.read_writes_eq_canon _ _ _ (coverB0_s V c t h0 h1 xs)]
  unfold runB0 kernelRun0_B; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]
  exact congrArg (k0_pay4 (iblk0 V c 0 t)) ((Memref.isWhole_whole cc0_scratch0).read_unread xs)

theorem outsB0_xq (c : Dev nD) (t : Fin cfg0.N) (h0 : ¬t.val % 16 = 0) (h1 : ¬t.val % 16 = 15) (xs : Vec F S1x128x1 .f32) :
    (outsB0 V c t h0 h1 xs).2.1 = k0_pay3 (iblk0 V c 0 t) := by
  unfold outsB0; dsimp only
  rw [View.read_writes_eq_canon _ _ _ (coverB0_2 V c t h0 h1 xs)]
  unfold runB0 kernelRun0_B; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]

theorem outsC0_scr (c : Dev nD) (t : Fin cfg0.N) (h0 : ¬t.val % 16 = 0) (h1 : t.val % 16 = 15) (xs : Vec F S1x128x1 .f32) :
    (outsC0 V c t h0 h1 xs).2.2 = k0_pay4 (iblk0 V c 0 t) xs := by
  unfold outsC0; dsimp only
  rw [View.read_writes_eq_canon _ _ _ (coverC0_s V c t h0 h1 xs)]
  unfold runC0 kernelRun0_C; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]
  exact congrArg (k0_pay4 (iblk0 V c 0 t)) ((Memref.isWhole_whole cc0_scratch0).read_unread xs)

theorem outsC0_xq (c : Dev nD) (t : Fin cfg0.N) (h0 : ¬t.val % 16 = 0) (h1 : t.val % 16 = 15) (xs : Vec F S1x128x1 .f32) :
    (outsC0 V c t h0 h1 xs).2.1 = k0_pay3 (iblk0 V c 0 t) := by
  unfold outsC0; dsimp only
  rw [View.read_writes_eq_canon _ _ _ (coverC0_2 V c t h0 h1 xs)]
  unfold runC0 kernelRun0_C; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]

theorem outsC0_sum (c : Dev nD) (t : Fin cfg0.N) (h0 : ¬t.val % 16 = 0) (h1 : t.val % 16 = 15) (xs : Vec F S1x128x1 .f32) :
    (outsC0 V c t h0 h1 xs).1 = k0_pay4 (iblk0 V c 0 t) xs := by
  unfold outsC0; dsimp only
  rw [View.read_writes_eq_canon _ _ _ (coverC0_1 V c t h0 h1 xs)]
  unfold runC0 kernelRun0_C; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]
  exact congrArg (k0_pay4 (iblk0 V c 0 t)) ((Memref.isWhole_whole cc0_scratch0).read_unread xs)

end Region0

end Cert.KernelIdeal.Fr

end
-- ==== Proof.KI.V12Pieces.lean ====
/-
  Regions 1 and 2: what the bodies' stores leave, as values. In region 1 the scratch column holds the block's
  channel sums of squared deviations added to what it held before (to zero at the first batch block of a half), and
  at the last batch block the sum output holds the scratch column. In region 2 the output block holds the
  normalized block.
-/
import proofs.«177003_j180388626588_2_alg».proof.Proof.KI.R1Frame
import proofs.«177003_j180388626588_2_alg».proof.Proof.KI.R2
import proofs.«177003_j180388626588_2_alg».proof.Proof.KI.V0Pieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

theorem outsA1_scr (c : Dev nD) (t : Fin cfg1.N) (h0 : t.val % 16 = 0) (h1 : ¬t.val % 16 = 15) :
    (outsA1 V c t h0 h1).2 = k1_pay2 (iblk1 V c 0 t) (iblk1 V c 1 t) (k1_pay1 (F := F)) := by
  unfold outsA1; dsimp only
  rw [View.read_writes_eq_canon _ _ _ (coverA1_s V c t h0 h1)]
  unfold runA1 kernelRun1_A; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]

theorem outsB1_scr (c : Dev nD) (t : Fin cfg1.N) (h0 : ¬t.val % 16 = 0) (h1 : ¬t.val % 16 = 15) (xs : Vec F S1x128x1 .f32) :
    (outsB1 V c t h0 h1 xs).2 = k1_pay2 (iblk1 V c 0 t) (iblk1 V c 1 t) xs := by
  unfold outsB1; dsimp only
  rw [View.read_writes_eq_canon _ _ _ (coverB1_s V c t h0 h1 xs)]
  unfold runB1 kernelRun1_B; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]
  exact congrArg (k1_pay2 (iblk1 V c 0 t) (iblk1 V c 1 t)) ((Memref.isWhole_whole cc1_scratch0).read_unread xs)

theorem outsC1_scr (c : Dev nD) (t : Fin cfg1.N) (h0 : ¬t.val % 16 = 0) (h1 : t.val % 16 = 15) (xs : Vec F S1x128x1 .f32) :
    (outsC1 V c t h0 h1 xs).2 = k1_pay2 (iblk1 V c 0 t) (iblk1 V c 1 t) xs := by
  unfold outsC1; dsimp only
  rw [View.read_writes_eq_canon _ _ _ (coverC1_s V c t h0 h1 xs)]
  unfold runC1 kernelRun1_C; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]
  exact congrArg (k1_pay2 (iblk1 V c 0 t) (iblk1 V c 1 t)) ((Memref.isWhole_whole cc1_scratch0).read_unread xs)

theorem outsC1_sum (c : Dev nD) (t : Fin cfg1.N) (h0 : ¬t.val % 16 = 0) (h1 : t.val % 16 = 15) (xs : Vec F S1x128x1 .f32) :
    (outsC1 V c t h0 h1 xs).1 = k1_pay2 (iblk1 V c 0 t) (iblk1 V c 1 t) xs := by
  unfold outsC1; dsimp only
  rw [View.read_writes_eq_canon _ _ _ (coverC1_2 V c t h0 h1 xs)]
  unfold runC1 kernelRun1_C; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]
  exact congrArg (k1_pay2 (iblk1 V c 0 t) (iblk1 V c 1 t)) ((Memref.isWhole_whole cc1_scratch0).read_unread xs)

end Region1

section Region2
variable (V : (c : Dev nD) → (b : Ref sig .tc) → Buf (Elt F) ((c : Thread nD τ).loc b))

theorem out2_5_eq (c : Dev nD) (t : Fin cfg2.N) :
    out2_5 V c t = k2_pay1 (iblk2 V c 0 t) (iblk2 V c 1 t) (iblk2 V c 2 t) (iblk2 V c 3 t) (iblk2 V c 4 t) := by
  unfold out2_5; dsimp only
  rw [View.read_writes_eq_canon _ _ _ (cover2_5 V c t)]
  unfold run2 kernelRun2; dsimp only
  sl_unfold_words
  first
    | rw [View.canon_cons_unit_zero (S := S1x128x1) hz3]
    | rw [View.canon_unit_zero (S := S1x128x1) hz3]
    | rw [View.canon_unit_zero (S := S4x128x3136) hz3]
    | rw [View.canon_unit_zero (S := S2x256x3136) hz3]
  try rw [View.readCov_unit_zero (S := S1x128x1) _ hz3]
  try simp only [View.readAt_eq_ld, Memref.IsWhole.read_unread, View.ld_unit_zero (S := S4x128x3136) hz3, View.ld_unit_zero (S := S1x128x1) hz3, View.ld_unit_zero (S := S2x256x3136) hz3, View.ld_unit_zero (S := S1x256x1) hz3]

end Region2

end Cert.KernelIdeal.Fr

end
-- ==== Proof.LibChannelSums.lean ====
/-
  Per-channel sums of a batch of feature maps, read as iterated finite sums.

  A batch-norm statistic sums an array over every axis but the channel axis. Three readings of such a sum at
  the exact (extended-real) values are proved here, all general in the extents:
  * a sum over `Fin N` with `N = K * B` is the double sum over `k < K`, `b < B` of the term at `k * B + b`
    (a batch walked in blocks of `B` rows; a flattened H x W plane walked row by row);
  * the host's add-reduction of an [n, m, b, c] array over its axes 0, 2 and 3, at channel `k`, is the initial
    value plus the triple sum over (i, p, q) of the operand at (i, k, p, q);
  * an accumulator that is reset to zero every sixteenth step and added to at every step holds, after step `n`,
    the sum of the terms of the steps since the last reset;
  * a block [a, b, c] summed over its last axis, the [a, b] result set as [a, b, 1], summed over its first axis
    and the [b, 1] result set as [1, b, 1] (two keepdims sums, as a kernel writes them) is, at (0, j, 0), the
    double sum over p < a, q < c of the block at (p, j, q);
  * a per-channel column [1, b, 1] broadcast over a block [a, b, c] reads the column at the block's channel.
-/
import Idealize.ShloMosaic.PureOps.Ideal.Laws
import Idealize.ShloMosaic.Lib.ValueIdx
import Idealize.ShloMosaic.Lib.ValueLayout
import Idealize.ShloMosaic.Lib.Pipeline.Value

namespace Idealize.ShloMosaic.ChannelSums

open Idealize.ShloMosaic Idealize.ShloMosaic.ValueIdx

section Split

variable {α : Type*} [AddCommMonoid α]

theorem split_lt {K B : ℕ} (k : Fin K) (b : Fin B) : k.val * B + b.val < K * B :=
  Nat.lt_of_lt_of_le (Nat.add_lt_add_left b.isLt _) (by rw [← Nat.succ_mul]; exact Nat.mul_le_mul_right _ k.isLt)

/-- A sum over `Fin N`, `N = K * B`, walked in `K` blocks of `B`. -/
theorem sum_split {K B N : ℕ} (hN : N = K * B) (f : Fin N → α) :
    ∑ n, f n = ∑ k : Fin K, ∑ b : Fin B, f ⟨k.val * B + b.val, hN ▸ split_lt k b⟩ := by
  subst hN
  rw [← Fintype.sum_prod_type' (fun (k : Fin K) (b : Fin B) => f ⟨k.val * B + b.val, split_lt k b⟩)]
  refine (Fintype.sum_equiv finProdFinEquiv _ _ fun kb => congrArg f (Fin.ext ?_)).symm
  show kb.1.val * B + kb.2.val = kb.2.val + B * kb.1.val
  rw [Nat.mul_comm, Nat.add_comm]

/-- Rank 4, axes 0, 2 and 3 dropped: the indices of an [n, m, b, c] array whose channel coordinate is `k` are the
    (i, k, p, q), so a sum over them is the triple sum over i, p and q. -/
theorem sum_filter_drop_channel {n m b c : ℕ} (h : (⟨4, ![n, m, b, c]⟩ : Shape).ReducesTo [0, 2, 3] ⟨1, ![m]⟩)
    (x : (⟨4, ![n, m, b, c]⟩ : Shape).Idx → α) (k : Fin m) :
    ∑ y ∈ Finset.univ.filter (fun y => h.drop y = ix1 k), x y = ∑ i : Fin n, ∑ p : Fin b, ∑ q : Fin c, x (ix4 i k p q) := by
  have hd : ∀ y : (⟨4, ![n, m, b, c]⟩ : Shape).Idx, (h.drop y 0 : ℕ) = (y 1 : ℕ) := fun _ => rfl
  have back : ∀ y : (⟨4, ![n, m, b, c]⟩ : Shape).Idx, h.drop y = ix1 k → ix4 (y 0) k (y 2) (y 3) = y := fun y hy => by
    have h1 : (y 1 : ℕ) = k.val := by rw [← hd y, hy]; rfl
    funext d
    match d with
    | ⟨0, _⟩ => rfl
    | ⟨1, _⟩ => exact Fin.ext h1.symm
    | ⟨2, _⟩ => rfl
    | ⟨3, _⟩ => rfl
  have e : ∑ i : Fin n, ∑ p : Fin b, ∑ q : Fin c, x (ix4 i k p q)
      = ∑ ipq : Fin n × Fin b × Fin c, x (ix4 ipq.1 k ipq.2.1 ipq.2.2) := by
    rw [Fintype.sum_prod_type]
    exact Finset.sum_congr rfl fun i _ => (Fintype.sum_prod_type (fun pq : Fin b × Fin c => x (ix4 i k pq.1 pq.2))).symm
  rw [e]
  refine Finset.sum_nbij' (fun y => ((y 0 : Fin n), (y 2 : Fin b), (y 3 : Fin c))) (fun ipq => ix4 ipq.1 k ipq.2.1 ipq.2.2) ?_ ?_ ?_ ?_ ?_
  · intro y _; exact Finset.mem_univ _
  · intro ipq _
    refine Finset.mem_filter.2 ⟨Finset.mem_univ _, funext fun d => ?_⟩
    match d with
    | ⟨0, _⟩ => exact Fin.ext (hd _)
  · intro y hy; exact back y (Finset.mem_filter.1 hy).2
  · intro ipq _; rfl
  · intro y hy; exact congrArg x (back y (Finset.mem_filter.1 hy).2).symm

/-- An accumulator `s` over steps `0, 1, …` that restarts from zero at every step divisible by sixteen and otherwise adds
    the step's term `d n` to what the step before left: after step `n` it holds the terms since the last restart. -/
theorem periodic_fold16 (s d : ℕ → α) (N : ℕ)
    (h0 : ∀ n, n < N → n % 16 = 0 → s n = 0 + d n)
    (h1 : ∀ n, n < N → n % 16 ≠ 0 → s n = s (n - 1) + d n) :
    ∀ n, n < N → s n = ∑ i ∈ Finset.range (n % 16 + 1), d (n - n % 16 + i) := by
  intro n
  induction n with
  | zero =>
    intro hn
    rw [h0 0 hn rfl, zero_add]
    simp
  | succ n ih =>
    intro hn
    by_cases hz : (n + 1) % 16 = 0
    · rw [h0 _ hn hz, zero_add, hz]
      simp
    · rw [h1 _ hn hz, show n + 1 - 1 = n from rfl, ih (by omega)]
      have e1 : (n + 1) % 16 = n % 16 + 1 := by omega
      rw [e1, Finset.sum_range_succ _ (n % 16 + 1)]
      have e2 : n + 1 - (n % 16 + 1) = n - n % 16 := by omega
      have e3 : n - n % 16 + (n % 16 + 1) = n + 1 := by omega
      rw [e2, e3]

/-- After the last step of a period the accumulator holds the whole period's terms: when step `i` of the period
    contributes `B` consecutive terms of a sequence `f` of length `16 * B`, that is the sum of `f`. -/
theorem periodic_total16 {B M : ℕ} (hM : M = 16 * B) (s d : ℕ → α) (N : ℕ)
    (h0 : ∀ n, n < N → n % 16 = 0 → s n = 0 + d n)
    (h1 : ∀ n, n < N → n % 16 ≠ 0 → s n = s (n - 1) + d n)
    (f : Fin M → α) (n : ℕ) (hn : n < N) (h15 : n % 16 = 15)
    (hd : ∀ i : Fin 16, d (n - 15 + i.val) = ∑ p : Fin B, f ⟨i.val * B + p.val, hM ▸ split_lt i p⟩) :
    s n = ∑ m, f m := by
  rw [periodic_fold16 s d N h0 h1 n hn, h15, sum_split hM f, Finset.sum_range (fun i => d (n - 15 + i))]
  exact Finset.sum_congr rfl fun i _ => hd i

end Split

variable {φ : FTy}

/-- The host's `stablehlo.reduce` with an add body of an [n, m, b, c] array over axes 0, 2 and 3, read exactly at
    channel `k`: the initial value plus the sum over the batch and the plane of the operand at (i, k, p, q). -/
theorem hostReduceAdd_channel {n m b c : ℕ} {u : Shape} (x : FVec Ideal ⟨4, ![n, m, b, c]⟩ φ) (init : u.Idx → Ideal φ)
    (h : (⟨4, ![n, m, b, c]⟩ : Shape).ReducesTo [0, 2, 3] ⟨1, ![m]⟩) (hu : 0 < u.numel) (k : Fin m) :
    Host.reduceAdd x init h hu (ix1 k)
      = init (Shape.Idx.first hu) + ∑ i : Fin n, ∑ p : Fin b, ∑ q : Fin c, x (ix4 i k p q) := by
  show Ideal.hostReduceAdd h x (init (Shape.Idx.first hu)) (ix1 k) = _
  unfold Ideal.hostReduceAdd
  rw [sum_filter_drop_channel h x k]

/-- An [a, b] array set as [a, b, 1] reads, at (p, j, u), the array at (p, j). -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    rw [hu, Nat.mul_one, Nat.add_zero])

/-- A per-channel column [1, b, 1] broadcast over a block [a, b, c] reads, at (p, j, q), the column at (0, j, 0). -/
theorem broadcastTo_1b1_abc_apply {α : Type} {a b c : ℕ} (v : (⟨3, ![1, b, 1]⟩ : Shape).Idx → α)
    (h : (⟨3, ![1, b, 1]⟩ : Shape).Broadcasts ⟨3, ![a, b, c]⟩) (p : Fin a) (j : Fin b) (q : Fin c) :
    broadcastTo ⟨3, ![a, b, c]⟩ v h (ix3 p j q) = v (ix3 (0 : Fin 1) j (0 : Fin 1)) := by
  refine broadcastTo_apply v h (ix3 p j q) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-- The two keepdims sums of a block, at a channel: a block [a, b, c] summed over its last axis, the result set as
    [a, b, 1], summed over its first axis, the result set as [1, b, 1], reads at (0, j, 0) the sum over p < a and
    q < c of the block at (p, j, q). The accumulators are the zero pattern, typed as a printed body types them. -/
theorem keepdims_sums_apply {a b c : ℕ} (v : FVec Ideal ⟨3, ![a, b, c]⟩ .f32)
    (h1 : (⟨3, ![a, b, c]⟩ : Shape).Reduces [2] ⟨2, ![a, b]⟩) (hc1 : (⟨2, ![a, b]⟩ : Shape).ShapeCasts ⟨3, ![a, b, 1]⟩)
    (h2 : (⟨3, ![a, b, 1]⟩ : Shape).Reduces [0] ⟨2, ![b, 1]⟩) (hc2 : (⟨2, ![b, 1]⟩ : Shape).ShapeCasts ⟨3, ![1, b, 1]⟩)
    (hφ : FKind.Formats .f32) (hacc : (0x00000000#32 : BitVec 32) = FKind.add.neutral .f32 hφ)
    (u : Fin 1) (j : Fin b) (w : Fin 1) :
    shapeCast ⟨3, ![1, b, 1]⟩
        (multiReduction .add [0] ⟨2, ![b, 1]⟩
          (shapeCast ⟨3, ![a, b, 1]⟩ (multiReduction .add [2] ⟨2, ![a, b]⟩ v 0x00000000#32 h1 hφ hacc) hc1)
          0x00000000#32 h2 hφ hacc) hc2 (ix3 u j w)
      = ∑ p : Fin a, ∑ q : Fin c, v (ix3 p j q) := by
  refine (shapeCast_ab_1ab_apply _ hc2 u j w).trans ?_
  refine (Ideal.multiReduction_add_single _ 0x00000000#32 h2 hφ hacc (ix2 j w)).trans ?_
  refine Finset.sum_congr rfl fun p _ => ?_
  have hl : h2.lift (ix2 j w) p = ix3 p j w := funext fun d => by
    match d with
    | ⟨0, _⟩ => rfl
    | ⟨1, _⟩ => rfl
    | ⟨2, _⟩ => rfl
  rw [hl]
  refine (shapeCast_ab_ab1_apply _ hc1 p j w).trans ?_
  refine (Ideal.multiReduction_add_single v 0x00000000#32 h1 hφ hacc (ix2 p j)).trans ?_
  refine Finset.sum_congr rfl fun q _ => congrArg v ?_
  funext d
  match d with
  | ⟨0, _⟩ => rfl
  | ⟨1, _⟩ => rfl
  | ⟨2, _⟩ => rfl

end Idealize.ShloMosaic.ChannelSums
-- ==== Proof.KI.VPay.lean ====
/-
  The bodies' arithmetic read at an index, at the exact values. A format change is the identity there, so: region 0
  stores the input block itself as the quantized block and adds, per channel, the block's sum to the scratch
  column; region 1 adds, per channel, the block's sum of squared deviations from the channel's mean; region 2
  stores ((x - mean) * scale) * gain + shift.
-/
import proofs.«177003_j180388626588_2_alg».proof.Proof.Gen.KernelIdeal.Skeleton
import proofs.«177003_j180388626588_2_alg».proof.Proof.LibChannelSums

noncomputable section

namespace Cert.KernelIdeal.Fr

open Idealize.ShloMosaic Idealize.ShloMosaic.ValueIdx Idealize.ShloMosaic.ChannelSums
open Cert.KernelIdeal Cert.KernelIdeal.Gen

/-- The reset value of a scratch column is zero. -/
theorem k0_pay1_apply (y : S1x128x1.Idx) : (k0_pay1 (F := Ideal)) y = 0 := by
  unfold k0_pay1
  rw [shapeCast_self]
  exact Ideal.ofBits_zero_f32
theorem k1_pay1_apply (y : S1x128x1.Idx) : (k1_pay1 (F := Ideal)) y = 0 := by
  unfold k1_pay1
  rw [shapeCast_self]
  exact Ideal.ofBits_zero_f32

/-- The quantized block is the input block. -/
theorem k0_pay3_apply (v3 : S4x128x3136.Idx → EReal) (y : S4x128x3136.Idx) : k0_pay3 (F := Ideal) v3 y = v3 y := by
  unfold k0_pay3 k0_pay2
  rw [shapeCast_self]
  rfl

/-- Region 0's scratch column after a block: what it held plus, per channel, the block's sum. -/
theorem k0_pay4_apply (v3 : S4x128x3136.Idx → EReal) (v12 : S1x128x1.Idx → EReal) (j : Fin 128) :
    k0_pay4 (F := Ideal) v3 v12 (ix3 (0 : Fin 1) j (0 : Fin 1))
      = v12 (ix3 (0 : Fin 1) j (0 : Fin 1)) + ∑ p : Fin 4, ∑ q : Fin 3136, v3 (ix3 p j q) := by
  unfold k0_pay4 k0_pay2
  simp only [shapeCast_self]
  exact congrArg (v12 (ix3 (0 : Fin 1) j (0 : Fin 1)) + ·) (keepdims_sums_apply v3 _ _ _ _ _ _ 0 j 0)

/-- Region 1's scratch column after a block: what it held plus, per channel, the block's sum of squared deviations
    from the channel's mean. -/
theorem k1_pay2_apply (v3 : S4x128x3136.Idx → EReal) (v6 v17 : S1x128x1.Idx → EReal) (j : Fin 128) :
    k1_pay2 (F := Ideal) v3 v6 v17 (ix3 (0 : Fin 1) j (0 : Fin 1))
      = (v17 (ix3 (0 : Fin 1) j (0 : Fin 1)))
        + ∑ p : Fin 4, ∑ q : Fin 3136, (v3 (ix3 p j q) - (v6 (ix3 (0 : Fin 1) j (0 : Fin 1)))) * (v3 (ix3 p j q) - (v6 (ix3 (0 : Fin 1) j (0 : Fin 1)))) := by
  unfold k1_pay2
  simp only [shapeCast_self]
  refine congrArg (v17 (ix3 (0 : Fin 1) j (0 : Fin 1)) + ·) ((keepdims_sums_apply _ _ _ _ _ _ _ 0 j 0).trans ?_)
  refine Finset.sum_congr rfl fun p _ => Finset.sum_congr rfl fun q _ => ?_
  have hb := broadcastTo_1b1_abc_apply v6 broadcasts_S1x128x1_S4x128x3136 p j q
  show (v3 (ix3 p j q) - (broadcastTo S4x128x3136 v6 broadcasts_S1x128x1_S4x128x3136 (ix3 p j q)))
      * (v3 (ix3 p j q) - (broadcastTo S4x128x3136 v6 broadcasts_S1x128x1_S4x128x3136 (ix3 p j q))) = _
  rw [hb]

/-- Region 2's output block: ((x - mean) * scale) * gain + shift, the four columns read at the element's channel. -/
theorem k2_pay1_apply (v0 : S2x256x3136.Idx → EReal) (v3 v7 v13 v19 : S1x256x1.Idx → EReal)
    (p : Fin 2) (j : Fin 256) (q : Fin 3136) :
    (k2_pay1 (F := Ideal) v0 v3 v7 v13 v19 (ix3 p j q))
      = (((v0 (ix3 p j q)) - (v3 (ix3 (0 : Fin 1) j (0 : Fin 1)))) * (v7 (ix3 (0 : Fin 1) j (0 : Fin 1)))) * (v13 (ix3 (0 : Fin 1) j (0 : Fin 1)))
        + (v19 (ix3 (0 : Fin 1) j (0 : Fin 1))) := by
  unfold k2_pay1
  simp only [shapeCast_self]
  show (((v0 (ix3 p j q)) - (broadcastTo S2x256x3136 v3 broadcasts_S1x256x1_S2x256x3136 (ix3 p j q)))
        * (broadcastTo S2x256x3136 v7 broadcasts_S1x256x1_S2x256x3136 (ix3 p j q)))
        * (broadcastTo S2x256x3136 v13 broadcasts_S1x256x1_S2x256x3136 (ix3 p j q))
      + (broadcastTo S2x256x3136 v19 broadcasts_S1x256x1_S2x256x3136 (ix3 p j q)) = _
  rw [broadcastTo_1b1_abc_apply v3, broadcastTo_1b1_abc_apply v7, broadcastTo_1b1_abc_apply v13, broadcastTo_1b1_abc_apply v19]

end Cert.KernelIdeal.Fr

end
-- ==== Proof.KI.V0Sum.lean ====
/-
  Region 0 at the exact values: what its two output arrays hold when the region ends.
  The quantized tensor is the input tensor (a format change is the identity). The sum output holds, at channel ch,
  the sum of the input over every batch row and every position of the channel's plane: the scratch column restarts
  at the first batch block of a half of the channels, gains the block's channel sums at every block, and is
  written out after the sixteenth block; sixteen blocks of four batch rows are the sixty-four rows.
-/
import proofs.«177003_j180388626588_2_alg».proof.Proof.KI.V0Pieces
import proofs.«177003_j180388626588_2_alg».proof.Proof.KI.VPay

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.ChannelSums

/-- The batch row of row `p` of the block of grid point `n`, -/
def rowOf (n : ℕ) (p : Fin 4) : Fin 64 := ⟨n % 16 * 4 + p.val, by have := p.isLt; omega⟩
/-- and the channel of its channel `j`. -/
def chanOf (n : ℕ) (hn : n < 32) (j : Fin 128) : Fin 256 := ⟨n / 16 * 128 + j.val, by have := j.isLt; omega⟩

/-- The printed index maps of region 0, decided over the grid. -/
theorem idx0 : ∀ t : Fin cfg0.N,
    win0_0.index t (0 : Fin 3) = t.val % 16 ∧ win0_0.index t (1 : Fin 3) = t.val / 16 ∧ win0_0.index t (2 : Fin 3) = 0
    ∧ win0_1.index t (0 : Fin 3) = 0 ∧ win0_1.index t (1 : Fin 3) = t.val / 16 ∧ win0_1.index t (2 : Fin 3) = 0
    ∧ win0_2.index t (0 : Fin 3) = t.val % 16 ∧ win0_2.index t (1 : Fin 3) = t.val / 16 ∧ win0_2.index t (2 : Fin 3) = 0 :=
  (by decide +kernel : ∀ t : Fin grid0.N, _)

section Region0

variable (V : (c : Dev nD) → (b : Ref sig .tc) → Buf (Elt Ideal) ((c : Thread nD τ).loc b))

/-- The input tensor as the region finds it, and its block at a grid point, as extended-real arrays. -/
abbrev inp3 (c : Dev nD) : S64x256x3136.Idx → EReal := V c main_v0
abbrev blk0 (c : Dev nD) (t : Fin cfg0.N) : S4x128x3136.Idx → EReal := iblk0 V c 0 t

/-- The input block of a grid point, read at (p, j, q), is the input at the block's batch row, channel and position. -/
theorem iblk0_0_apply (c : Dev nD) (t : Fin cfg0.N) (p : Fin 4) (j : Fin 128) (q : Fin 3136) :
    blk0 V c t (ix3 p j q) = inp3 V c (ix3 (rowOf t.val p) (chanOf t.val (lt_of_lt_of_eq t.isLt N_0) j) q) := by
  obtain ⟨e0, e1, e2, -⟩ := idx0 t
  show V c main_v0 (((cfg0.win 0).blk t).view.emb (ix3 p j q)) = _
  refine congrArg _ (funext fun a => Fin.ext ?_)
  match a with
  | ⟨0, _⟩ => show win0_0.index t (0 : Fin 3) * 4 + 1 * p.val = t.val % 16 * 4 + p.val; rw [e0]; omega
  | ⟨1, _⟩ => show win0_0.index t (1 : Fin 3) * 128 + 1 * j.val = t.val / 16 * 128 + j.val; rw [e1]; omega
  | ⟨2, _⟩ => show win0_0.index t (2 : Fin 3) * 3136 + 1 * q.val = q.val; rw [e2]; omega

/-- The scratch column after the last batch block of a half holds, per channel, the sum of the input over the
    sixty-four batch rows and the channel's plane. -/
theorem scr0_total (c : Dev nD) (t : Fin cfg0.N) (h15 : t.val % 16 = 15) (j : Fin 128) :
    (outsAt0 V c t.val t.isLt).2.2 (ix3 (0 : Fin 1) j (0 : Fin 1))
      = ∑ n : Fin 64, ∑ q : Fin 3136, inp3 V c (ix3 n (chanOf t.val (lt_of_lt_of_eq t.isLt N_0) j) q) := by
  have hN : cfg0.N = 32 := N_0
  let s : ℕ → EReal := fun n => if h : n < cfg0.N then (outsAt0 V c n h).2.2 (ix3 (0 : Fin 1) j (0 : Fin 1)) else 0
  let d : ℕ → EReal := fun n => if h : n < cfg0.N then
    ∑ p : Fin 4, ∑ q : Fin 3136, blk0 V c ⟨n, h⟩ (ix3 p j q) else 0
  have hs : ∀ n (h : n < cfg0.N), s n = (outsAt0 V c n h).2.2 (ix3 (0 : Fin 1) j (0 : Fin 1)) := fun n h => dif_pos h
  have hd : ∀ n (h : n < cfg0.N), d n = ∑ p : Fin 4, ∑ q : Fin 3136, blk0 V c ⟨n, h⟩ (ix3 p j q) :=
    fun n h => dif_pos h
  rw [← hs t.val t.isLt]
  refine periodic_total16 (B := 4) (M := 64) rfl s d cfg0.N ?_ ?_
    (fun n => ∑ q : Fin 3136, inp3 V c (ix3 n (chanOf t.val (lt_of_lt_of_eq t.isLt N_0) j) q)) t.val t.isLt h15 ?_
  · intro n hn hz
    rw [hs n hn, hd n hn]
    have e := outsAt0_A V c ⟨n, hn⟩ hz (by show ¬n % 16 = 15; omega)
    calc (outsAt0 V c n hn).2.2 (ix3 (0 : Fin 1) j (0 : Fin 1))
        = (outsA0 V c ⟨n, hn⟩ hz (by show ¬n % 16 = 15; omega)).2.2 (ix3 (0 : Fin 1) j (0 : Fin 1)) := congrFun (congrArg (·.2.2) e) _
      _ = k0_pay4 (F := Ideal) (blk0 V c ⟨n, hn⟩) (k0_pay1 (F := Ideal)) (ix3 (0 : Fin 1) j (0 : Fin 1)) := congrFun (outsA0_scr V c ⟨n, hn⟩ _ _) _
      _ = k0_pay1 (F := Ideal) (ix3 (0 : Fin 1) j (0 : Fin 1)) + ∑ p : Fin 4, ∑ q : Fin 3136, blk0 V c ⟨n, hn⟩ (ix3 p j q) := k0_pay4_apply (blk0 V c ⟨n, hn⟩) (k0_pay1 (F := Ideal)) j
      _ = 0 + ∑ p : Fin 4, ∑ q : Fin 3136, blk0 V c ⟨n, hn⟩ (ix3 p j q) := by rw [k0_pay1_apply]
  · intro n hn hz
    have hn1 : n - 1 < cfg0.N := by omega
    rw [hs n hn, hd n hn, hs (n - 1) hn1]
    by_cases h : n % 16 = 15
    · have e := outsAt0_C V c ⟨n, hn⟩ hz h
      calc (outsAt0 V c n hn).2.2 (ix3 (0 : Fin 1) j (0 : Fin 1))
          = (outsC0 V c ⟨n, hn⟩ hz h (outsAt0 V c (n - 1) hn1).2.2).2.2 (ix3 (0 : Fin 1) j (0 : Fin 1)) := congrFun (congrArg (·.2.2) e) _
        _ = k0_pay4 (F := Ideal) (blk0 V c ⟨n, hn⟩) (outsAt0 V c (n - 1) hn1).2.2 (ix3 (0 : Fin 1) j (0 : Fin 1)) := congrFun (outsC0_scr V c ⟨n, hn⟩ _ _ _) _
        _ = _ := k0_pay4_apply (blk0 V c ⟨n, hn⟩) _ j
    · have e := outsAt0_B V c ⟨n, hn⟩ hz h
      calc (outsAt0 V c n hn).2.2 (ix3 (0 : Fin 1) j (0 : Fin 1))
          = (outsB0 V c ⟨n, hn⟩ hz h (outsAt0 V c (n - 1) hn1).2.2).2.2 (ix3 (0 : Fin 1) j (0 : Fin 1)) := congrFun (congrArg (·.2.2) e) _
        _ = k0_pay4 (F := Ideal) (blk0 V c ⟨n, hn⟩) (outsAt0 V c (n - 1) hn1).2.2 (ix3 (0 : Fin 1) j (0 : Fin 1)) := congrFun (outsB0_scr V c ⟨n, hn⟩ _ _ _) _
        _ = _ := k0_pay4_apply (blk0 V c ⟨n, hn⟩) _ j
  · intro i
    have hi : t.val - 15 + i.val < cfg0.N := by have := i.isLt; omega
    rw [hd _ hi]
    refine Finset.sum_congr rfl fun p _ => Finset.sum_congr rfl fun q _ => ?_
    rw [iblk0_0_apply V c ⟨t.val - 15 + i.val, hi⟩ p j q]
    refine congrArg (inp3 V c) ?_
    have hp := p.isLt
    have hi' := i.isLt
    refine congrArg₂ (fun a b => ix3 a b q) (Fin.ext ?_) (Fin.ext ?_)
    · show (t.val - 15 + i.val) % 16 * 4 + p.val = i.val * 4 + p.val; omega
    · show (t.val - 15 + i.val) / 16 * 128 + j.val = t.val / 16 * 128 + j.val; omega

end Region0

end Cert.KernelIdeal.Fr

end
-- ==== Proof.KI.V0Arr.lean ====
/-
  Region 0 at the exact values: its two output arrays when the region ends, as whole-array functions of the
  input tensor. Every index of each array lies in the block some grid point writes back, and each written block
  is the block of one function: the per-channel total for the sum output, the input itself for the quantized tensor.
-/
import proofs.«177003_j180388626588_2_alg».proof.Proof.KI.V0Sum

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.ChannelSums

/-- The per-channel totals of a [64, 256, 3136] tensor, as a [1, 256, 1] column. -/
def sumArr (X : S64x256x3136.Idx → EReal) : S1x256x1.Idx → EReal :=
  fun i => ∑ n : Fin 64, ∑ q : Fin 3136, X (ix3 n ⟨(i 1).val, (i 1).isLt⟩ q)

section Region0

variable (V : (c : Dev nD) → (b : Ref sig .tc) → Buf (Elt Ideal) ((c : Thread nD τ).loc b))

/-- Every grid point's quantized block is its input block. -/
theorem xq0_at (c : Dev nD) (t : Fin cfg0.N) : (outsAt0 V c t.val t.isLt).2.1 = k0_pay3 (F := Ideal) (blk0 V c t) := by
  by_cases h1 : t.val % 16 = 15
  · have h0 : ¬t.val % 16 = 0 := by omega
    rw [outsAt0_C V c t h0 h1]; exact outsC0_xq V c t h0 h1 _
  · by_cases h0 : t.val % 16 = 0
    · rw [outsAt0_A V c t h0 h1]; exact outsA0_xq V c t h0 h1
    · rw [outsAt0_B V c t h0 h1]; exact outsB0_xq V c t h0 h1 _

/-- At the last batch block of a half the sum output holds the scratch column. -/
theorem sum0_at (c : Dev nD) (t : Fin cfg0.N) (h15 : t.val % 16 = 15) :
    (outsAt0 V c t.val t.isLt).1 = (outsAt0 V c t.val t.isLt).2.2 := by
  have h0 : ¬t.val % 16 = 0 := by omega
  rw [outsAt0_C V c t h0 h15, outsC0_sum, outsC0_scr]

/-- What a writing-back point writes of the sum output is its block of the per-channel totals. -/
theorem flushed0_1 (c : Dev nD) (t : Fin cfg0.N) (hf : (cfg0.win 1).flush t = true) :
    (dat0 V c).flushed 1 t = ((cfg0.win 1).blk t).view.read (Elt Ideal) (sumArr (inp3 V c)) := by
  have h15 : t.val % 16 = 15 := (flush0_1 t).mp hf
  obtain ⟨-, -, -, e0, e1, e2, -⟩ := idx0 t
  show (cfg0.win 1).cut (grid0.coords t) ((dat0 V c).after 1 t) = _
  rw [after0_1, sum0_at V c t h15]
  funext y
  obtain ⟨u, j, w, rfl⟩ : ∃ (u : Fin 1) (j : Fin 128) (w : Fin 1), y = ix3 u j w := ⟨y 0, y 1, y 2, eq_ix3 y⟩
  obtain rfl : u = 0 := Subsingleton.elim _ _
  obtain rfl : w = 0 := Subsingleton.elim _ _
  show (outsAt0 V c t.val t.isLt).2.2 (ix3 (0 : Fin 1) j (0 : Fin 1)) = sumArr (inp3 V c) (((cfg0.win 1).blk t).view.emb (ix3 (0 : Fin 1) j (0 : Fin 1)))
  rw [scr0_total V c t h15 j]
  unfold sumArr
  refine Finset.sum_congr rfl fun n _ => Finset.sum_congr rfl fun q _ => congrArg (inp3 V c) ?_
  refine congrArg (fun ch => ix3 n ch q) (Fin.ext ?_)
  show t.val / 16 * 128 + j.val = win0_1.index t (1 : Fin 3) * 128 + 1 * j.val
  rw [e1]; omega

/-- Every channel of the sum output lies in the block the last batch block of its half writes back. -/
theorem cover0_1 (i : S1x256x1.Idx) : ∃ t : Fin cfg0.N, (cfg0.win 1).flush t = true ∧ i ∈ ((cfg0.win 1).blk t).view.set := by
  have hN : cfg0.N = 32 := N_0
  have h0 : (i 0).val < 1 := (i 0).isLt
  have h1 : (i 1).val < 256 := (i 1).isLt
  have h2 : (i 2).val < 1 := (i 2).isLt
  have ht : (i 1).val / 128 * 16 + 15 < cfg0.N := by omega
  obtain ⟨-, -, -, e0, e1, e2, -⟩ := idx0 ⟨(i 1).val / 128 * 16 + 15, ht⟩
  refine ⟨⟨(i 1).val / 128 * 16 + 15, ht⟩, (flush0_1 _).mpr (by show ((i 1).val / 128 * 16 + 15) % 16 = 15; omega), ?_⟩
  show i ∈ ((View.whole main_v1_0).slice (win0_1.rect ⟨(i 1).val / 128 * 16 + 15, ht⟩)).set
  rw [View.set_slice_whole, Rect.mem_set_unit]
  intro a
  match a with
  | ⟨0, _⟩ =>
    show win0_1.index ⟨(i 1).val / 128 * 16 + 15, ht⟩ (0 : Fin 3) * 1 ≤ (i 0).val ∧ (i 0).val < win0_1.index ⟨(i 1).val / 128 * 16 + 15, ht⟩ (0 : Fin 3) * 1 + 1
    rw [e0]; omega
  | ⟨1, _⟩ =>
    show win0_1.index ⟨(i 1).val / 128 * 16 + 15, ht⟩ (1 : Fin 3) * 128 ≤ (i 1).val ∧ (i 1).val < win0_1.index ⟨(i 1).val / 128 * 16 + 15, ht⟩ (1 : Fin 3) * 128 + 128
    rw [e1]; show ((i 1).val / 128 * 16 + 15) / 16 * 128 ≤ (i 1).val ∧ (i 1).val < ((i 1).val / 128 * 16 + 15) / 16 * 128 + 128; omega
  | ⟨2, _⟩ =>
    show win0_1.index ⟨(i 1).val / 128 * 16 + 15, ht⟩ (2 : Fin 3) * 1 ≤ (i 2).val ∧ (i 2).val < win0_1.index ⟨(i 1).val / 128 * 16 + 15, ht⟩ (2 : Fin 3) * 1 + 1
    rw [e2]; omega

/-- The sum output after the region: the per-channel totals of the input tensor. -/
theorem final0_1 (c : Dev nD) : (dat0 V c).arrAt 1 cfg0.N = sumArr (inp3 V c) :=
  (dat0 V c).arrAt_eq_of_cover 1 (sumArr (inp3 V c)) (flushed0_1 V c) cover0_1

/-- What any point writes of the quantized tensor is its block of the input tensor. -/
theorem flushed0_2 (c : Dev nD) (t : Fin cfg0.N) (hf : (cfg0.win 2).flush t = true) :
    (dat0 V c).flushed 2 t = ((cfg0.win 2).blk t).view.read (Elt Ideal) (inp3 V c) := by
  obtain ⟨-, -, -, -, -, -, e0, e1, e2⟩ := idx0 t
  show (cfg0.win 2).cut (grid0.coords t) ((dat0 V c).after 2 t) = _
  rw [after0_2, xq0_at V c t]
  funext y
  obtain ⟨p, j, q, rfl⟩ : ∃ (p : Fin 4) (j : Fin 128) (q : Fin 3136), y = ix3 p j q := ⟨y 0, y 1, y 2, eq_ix3 y⟩
  show k0_pay3 (F := Ideal) (blk0 V c t) (ix3 p j q) = inp3 V c (((cfg0.win 2).blk t).view.emb (ix3 p j q))
  rw [k0_pay3_apply, iblk0_0_apply]
  refine congrArg (inp3 V c) (funext fun a => Fin.ext ?_)
  match a with
  | ⟨0, _⟩ => show t.val % 16 * 4 + p.val = win0_2.index t (0 : Fin 3) * 4 + 1 * p.val; rw [e0]; omega
  | ⟨1, _⟩ => show t.val / 16 * 128 + j.val = win0_2.index t (1 : Fin 3) * 128 + 1 * j.val; rw [e1]; omega
  | ⟨2, _⟩ => show q.val = win0_2.index t (2 : Fin 3) * 3136 + 1 * q.val; rw [e2]; omega

/-- Every index of the quantized tensor lies in the block its batch block and its half's grid point writes back. -/
theorem cover0_2 (i : S64x256x3136.Idx) : ∃ t : Fin cfg0.N, (cfg0.win 2).flush t = true ∧ i ∈ ((cfg0.win 2).blk t).view.set := by
  have hN : cfg0.N = 32 := N_0
  have h0 : (i 0).val < 64 := (i 0).isLt
  have h1 : (i 1).val < 256 := (i 1).isLt
  have h2 : (i 2).val < 3136 := (i 2).isLt
  have ht : (i 1).val / 128 * 16 + (i 0).val / 4 < cfg0.N := by omega
  obtain ⟨-, -, -, -, -, -, e0, e1, e2⟩ := idx0 ⟨(i 1).val / 128 * 16 + (i 0).val / 4, ht⟩
  refine ⟨⟨(i 1).val / 128 * 16 + (i 0).val / 4, ht⟩, flush0_2 _, ?_⟩
  show i ∈ ((View.whole main_v1_1).slice (win0_2.rect ⟨(i 1).val / 128 * 16 + (i 0).val / 4, ht⟩)).set
  rw [View.set_slice_whole, Rect.mem_set_unit]
  intro a
  match a with
  | ⟨0, _⟩ =>
    show win0_2.index ⟨(i 1).val / 128 * 16 + (i 0).val / 4, ht⟩ (0 : Fin 3) * 4 ≤ (i 0).val ∧ (i 0).val < win0_2.index ⟨(i 1).val / 128 * 16 + (i 0).val / 4, ht⟩ (0 : Fin 3) * 4 + 4
    rw [e0]; show ((i 1).val / 128 * 16 + (i 0).val / 4) % 16 * 4 ≤ (i 0).val ∧ (i 0).val < ((i 1).val / 128 * 16 + (i 0).val / 4) % 16 * 4 + 4; omega
  | ⟨1, _⟩ =>
    show win0_2.index ⟨(i 1).val / 128 * 16 + (i 0).val / 4, ht⟩ (1 : Fin 3) * 128 ≤ (i 1).val ∧ (i 1).val < win0_2.index ⟨(i 1).val / 128 * 16 + (i 0).val / 4, ht⟩ (1 : Fin 3) * 128 + 128
    rw [e1]; show ((i 1).val / 128 * 16 + (i 0).val / 4) / 16 * 128 ≤ (i 1).val ∧ (i 1).val < ((i 1).val / 128 * 16 + (i 0).val / 4) / 16 * 128 + 128; omega
  | ⟨2, _⟩ =>
    show win0_2.index ⟨(i 1).val / 128 * 16 + (i 0).val / 4, ht⟩ (2 : Fin 3) * 3136 ≤ (i 2).val ∧ (i 2).val < win0_2.index ⟨(i 1).val / 128 * 16 + (i 0).val / 4, ht⟩ (2 : Fin 3) * 3136 + 3136
    rw [e2]; omega

/-- The quantized tensor after the region: the input tensor. -/
theorem final0_2 (c : Dev nD) : (dat0 V c).arrAt 2 cfg0.N = inp3 V c :=
  (dat0 V c).arrAt_eq_of_cover 2 (inp3 V c) (flushed0_2 V c) cover0_2

end Region0

end Cert.KernelIdeal.Fr

end
-- ==== Proof.KI.V1Arr.lean ====
/-
  Region 1 at the exact values: its output array when the region ends. The sum output holds, at channel ch, the
  sum over every batch row and every position of the channel's plane of the squared deviation of the quantized
  tensor from the channel's mean: the scratch column restarts at the first batch block of a half of the channels,
  gains the block's sums at every block, and is written out after the sixteenth block.
-/
import proofs.«177003_j180388626588_2_alg».proof.Proof.KI.V12Pieces
import proofs.«177003_j180388626588_2_alg».proof.Proof.KI.V0Arr

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.ChannelSums

/-- The printed index maps of region 1, decided over the grid. -/
theorem idx1 : ∀ t : Fin cfg1.N,
    win1_0.index t (0 : Fin 3) = t.val % 16 ∧ win1_0.index t (1 : Fin 3) = t.val / 16 ∧ win1_0.index t (2 : Fin 3) = 0
    ∧ win1_1.index t (0 : Fin 3) = 0 ∧ win1_1.index t (1 : Fin 3) = t.val / 16 ∧ win1_1.index t (2 : Fin 3) = 0
    ∧ win1_2.index t (0 : Fin 3) = 0 ∧ win1_2.index t (1 : Fin 3) = t.val / 16 ∧ win1_2.index t (2 : Fin 3) = 0 :=
  (by decide +kernel : ∀ t : Fin grid1.N, _)

/-- The per-channel totals of the squared deviations of a [64, 256, 3136] tensor from a column of means. -/
def sqArr (X : S64x256x3136.Idx → EReal) (M : S1x256x1.Idx → EReal) : S1x256x1.Idx → EReal :=
  fun i => ∑ n : Fin 64, ∑ q : Fin 3136,
    (X (ix3 n ⟨(i 1).val, (i 1).isLt⟩ q) - M (ix3 (0 : Fin 1) ⟨(i 1).val, (i 1).isLt⟩ (0 : Fin 1)))
      * (X (ix3 n ⟨(i 1).val, (i 1).isLt⟩ q) - M (ix3 (0 : Fin 1) ⟨(i 1).val, (i 1).isLt⟩ (0 : Fin 1)))

section Region1

variable (V : (c : Dev nD) → (b : Ref sig .tc) → Buf (Elt Ideal) ((c : Thread nD τ).loc b))

/-- The quantized tensor and the column of means as the region finds them, and their blocks at a grid point. -/
abbrev xq3 (c : Dev nD) : S64x256x3136.Idx → EReal := V c main_v1_1
abbrev mean3 (c : Dev nD) : S1x256x1.Idx → EReal := V c main_v5
abbrev blk1_0 (c : Dev nD) (t : Fin cfg1.N) : S4x128x3136.Idx → EReal := iblk1 V c 0 t
abbrev blk1_1 (c : Dev nD) (t : Fin cfg1.N) : S1x128x1.Idx → EReal := iblk1 V c 1 t

theorem iblk1_0_apply (c : Dev nD) (t : Fin cfg1.N) (p : Fin 4) (j : Fin 128) (q : Fin 3136) :
    blk1_0 V c t (ix3 p j q) = xq3 V c (ix3 (rowOf t.val p) (chanOf t.val (lt_of_lt_of_eq t.isLt N_1) j) q) := by
  obtain ⟨e0, e1, e2, -⟩ := idx1 t
  show V c main_v1_1 (((cfg1.win 0).blk t).view.emb (ix3 p j q)) = _
  refine congrArg _ (funext fun a => Fin.ext ?_)
  match a with
  | ⟨0, _⟩ => show win1_0.index t (0 : Fin 3) * 4 + 1 * p.val = t.val % 16 * 4 + p.val; rw [e0]; omega
  | ⟨1, _⟩ => show win1_0.index t (1 : Fin 3) * 128 + 1 * j.val = t.val / 16 * 128 + j.val; rw [e1]; omega
  | ⟨2, _⟩ => show win1_0.index t (2 : Fin 3) * 3136 + 1 * q.val = q.val; rw [e2]; omega

theorem iblk1_1_apply (c : Dev nD) (t : Fin cfg1.N) (j : Fin 128) :
    blk1_1 V c t (ix3 (0 : Fin 1) j (0 : Fin 1)) = mean3 V c (ix3 (0 : Fin 1) (chanOf t.val (lt_of_lt_of_eq t.isLt N_1) j) (0 : Fin 1)) := by
  obtain ⟨-, -, -, e0, e1, e2, -⟩ := idx1 t
  show V c main_v5 (((cfg1.win 1).blk t).view.emb (ix3 (0 : Fin 1) j (0 : Fin 1))) = _
  refine congrArg _ (funext fun a => Fin.ext ?_)
  match a with
  | ⟨0, _⟩ => show win1_1.index t (0 : Fin 3) * 1 + 1 * 0 = 0; rw [e0]
  | ⟨1, _⟩ => show win1_1.index t (1 : Fin 3) * 128 + 1 * j.val = t.val / 16 * 128 + j.val; rw [e1]; omega
  | ⟨2, _⟩ => show win1_1.index t (2 : Fin 3) * 1 + 1 * 0 = 0; rw [e2]

/-- The scratch column after the last batch block of a half holds, per channel, the total squared deviation. -/
theorem scr1_total (c : Dev nD) (t : Fin cfg1.N) (h15 : t.val % 16 = 15) (j : Fin 128) :
    (outsAt1 V c t.val t.isLt).2 (ix3 (0 : Fin 1) j (0 : Fin 1))
      = ∑ n : Fin 64, ∑ q : Fin 3136,
          (xq3 V c (ix3 n (chanOf t.val (lt_of_lt_of_eq t.isLt N_1) j) q) - mean3 V c (ix3 (0 : Fin 1) (chanOf t.val (lt_of_lt_of_eq t.isLt N_1) j) (0 : Fin 1)))
            * (xq3 V c (ix3 n (chanOf t.val (lt_of_lt_of_eq t.isLt N_1) j) q) - mean3 V c (ix3 (0 : Fin 1) (chanOf t.val (lt_of_lt_of_eq t.isLt N_1) j) (0 : Fin 1))) := by
  have hN : cfg1.N = 32 := N_1
  let s : ℕ → EReal := fun n => if h : n < cfg1.N then (outsAt1 V c n h).2 (ix3 (0 : Fin 1) j (0 : Fin 1)) else 0
  let d : ℕ → EReal := fun n => if h : n < cfg1.N then
    ∑ p : Fin 4, ∑ q : Fin 3136, (blk1_0 V c ⟨n, h⟩ (ix3 p j q) - blk1_1 V c ⟨n, h⟩ (ix3 (0 : Fin 1) j (0 : Fin 1)))
      * (blk1_0 V c ⟨n, h⟩ (ix3 p j q) - blk1_1 V c ⟨n, h⟩ (ix3 (0 : Fin 1) j (0 : Fin 1))) else 0
  have hs : ∀ n (h : n < cfg1.N), s n = (outsAt1 V c n h).2 (ix3 (0 : Fin 1) j (0 : Fin 1)) := fun n h => dif_pos h
  have hd : ∀ n (h : n < cfg1.N), d n = ∑ p : Fin 4, ∑ q : Fin 3136,
      (blk1_0 V c ⟨n, h⟩ (ix3 p j q) - blk1_1 V c ⟨n, h⟩ (ix3 (0 : Fin 1) j (0 : Fin 1)))
        * (blk1_0 V c ⟨n, h⟩ (ix3 p j q) - blk1_1 V c ⟨n, h⟩ (ix3 (0 : Fin 1) j (0 : Fin 1))) := fun n h => dif_pos h
  rw [← hs t.val t.isLt]
  refine periodic_total16 (B := 4) (M := 64) rfl s d cfg1.N ?_ ?_
    (fun n => ∑ q : Fin 3136,
      (xq3 V c (ix3 n (chanOf t.val (lt_of_lt_of_eq t.isLt N_1) j) q) - mean3 V c (ix3 (0 : Fin 1) (chanOf t.val (lt_of_lt_of_eq t.isLt N_1) j) (0 : Fin 1)))
        * (xq3 V c (ix3 n (chanOf t.val (lt_of_lt_of_eq t.isLt N_1) j) q) - mean3 V c (ix3 (0 : Fin 1) (chanOf t.val (lt_of_lt_of_eq t.isLt N_1) j) (0 : Fin 1)))) t.val t.isLt h15 ?_
  · intro n hn hz
    rw [hs n hn, hd n hn]
    have e := outsAt1_A V c ⟨n, hn⟩ hz (by show ¬n % 16 = 15; omega)
    calc (outsAt1 V c n hn).2 (ix3 (0 : Fin 1) j (0 : Fin 1))
        = (outsA1 V c ⟨n, hn⟩ hz (by show ¬n % 16 = 15; omega)).2 (ix3 (0 : Fin 1) j (0 : Fin 1)) := congrFun (congrArg (·.2) e) _
      _ = k1_pay2 (F := Ideal) (blk1_0 V c ⟨n, hn⟩) (blk1_1 V c ⟨n, hn⟩) (k1_pay1 (F := Ideal)) (ix3 (0 : Fin 1) j (0 : Fin 1)) := congrFun (outsA1_scr V c ⟨n, hn⟩ _ _) _
      _ = k1_pay1 (F := Ideal) (ix3 (0 : Fin 1) j (0 : Fin 1)) + ∑ p : Fin 4, ∑ q : Fin 3136,
            (blk1_0 V c ⟨n, hn⟩ (ix3 p j q) - blk1_1 V c ⟨n, hn⟩ (ix3 (0 : Fin 1) j (0 : Fin 1)))
              * (blk1_0 V c ⟨n, hn⟩ (ix3 p j q) - blk1_1 V c ⟨n, hn⟩ (ix3 (0 : Fin 1) j (0 : Fin 1))) :=
          k1_pay2_apply (blk1_0 V c ⟨n, hn⟩) (blk1_1 V c ⟨n, hn⟩) (k1_pay1 (F := Ideal)) j
      _ = 0 + ∑ p : Fin 4, ∑ q : Fin 3136,
            (blk1_0 V c ⟨n, hn⟩ (ix3 p j q) - blk1_1 V c ⟨n, hn⟩ (ix3 (0 : Fin 1) j (0 : Fin 1)))
              * (blk1_0 V c ⟨n, hn⟩ (ix3 p j q) - blk1_1 V c ⟨n, hn⟩ (ix3 (0 : Fin 1) j (0 : Fin 1))) := by rw [k1_pay1_apply]
  · intro n hn hz
    have hn1 : n - 1 < cfg1.N := by omega
    rw [hs n hn, hd n hn, hs (n - 1) hn1]
    by_cases h : n % 16 = 15
    · have e := outsAt1_C V c ⟨n, hn⟩ hz h
      calc (outsAt1 V c n hn).2 (ix3 (0 : Fin 1) j (0 : Fin 1))
          = (outsC1 V c ⟨n, hn⟩ hz h (outsAt1 V c (n - 1) hn1).2).2 (ix3 (0 : Fin 1) j (0 : Fin 1)) := congrFun (congrArg (·.2) e) _
        _ = k1_pay2 (F := Ideal) (blk1_0 V c ⟨n, hn⟩) (blk1_1 V c ⟨n, hn⟩) (outsAt1 V c (n - 1) hn1).2 (ix3 (0 : Fin 1) j (0 : Fin 1)) := congrFun (outsC1_scr V c ⟨n, hn⟩ _ _ _) _
        _ = _ := k1_pay2_apply (blk1_0 V c ⟨n, hn⟩) (blk1_1 V c ⟨n, hn⟩) _ j
    · have e := outsAt1_B V c ⟨n, hn⟩ hz h
      calc (outsAt1 V c n hn).2 (ix3 (0 : Fin 1) j (0 : Fin 1))
          = (outsB1 V c ⟨n, hn⟩ hz h (outsAt1 V c (n - 1) hn1).2).2 (ix3 (0 : Fin 1) j (0 : Fin 1)) := congrFun (congrArg (·.2) e) _
        _ = k1_pay2 (F := Ideal) (blk1_0 V c ⟨n, hn⟩) (blk1_1 V c ⟨n, hn⟩) (outsAt1 V c (n - 1) hn1).2 (ix3 (0 : Fin 1) j (0 : Fin 1)) := congrFun (outsB1_scr V c ⟨n, hn⟩ _ _ _) _
        _ = _ := k1_pay2_apply (blk1_0 V c ⟨n, hn⟩) (blk1_1 V c ⟨n, hn⟩) _ j
  · intro i
    have hi : t.val - 15 + i.val < cfg1.N := by have := i.isLt; omega
    rw [hd _ hi]
    refine Finset.sum_congr rfl fun p _ => Finset.sum_congr rfl fun q _ => ?_
    rw [iblk1_0_apply V c ⟨t.val - 15 + i.val, hi⟩ p j q, iblk1_1_apply V c ⟨t.val - 15 + i.val, hi⟩ j]
    have hp := p.isLt
    have hi' := i.isLt
    have hr : rowOf (t.val - 15 + i.val) p = ⟨i.val * 4 + p.val, ChannelSums.split_lt i p⟩ :=
      Fin.ext (by show (t.val - 15 + i.val) % 16 * 4 + p.val = i.val * 4 + p.val; omega)
    have hc : chanOf (t.val - 15 + i.val) (lt_of_lt_of_eq hi N_1) j = (chanOf t.val (lt_of_lt_of_eq t.isLt N_1) j) :=
      Fin.ext (by show (t.val - 15 + i.val) / 16 * 128 + j.val = t.val / 16 * 128 + j.val; omega)
    show (xq3 V c (ix3 (rowOf (t.val - 15 + i.val) p) (chanOf (t.val - 15 + i.val) (lt_of_lt_of_eq hi N_1) j) q)
          - mean3 V c (ix3 (0 : Fin 1) (chanOf (t.val - 15 + i.val) (lt_of_lt_of_eq hi N_1) j) (0 : Fin 1)))
        * (xq3 V c (ix3 (rowOf (t.val - 15 + i.val) p) (chanOf (t.val - 15 + i.val) (lt_of_lt_of_eq hi N_1) j) q)
          - mean3 V c (ix3 (0 : Fin 1) (chanOf (t.val - 15 + i.val) (lt_of_lt_of_eq hi N_1) j) (0 : Fin 1))) = _
    rw [hr, hc]

/-- At the last batch block of a half the sum output holds the scratch column. -/
theorem sum1_at (c : Dev nD) (t : Fin cfg1.N) (h15 : t.val % 16 = 15) :
    (outsAt1 V c t.val t.isLt).1 = (outsAt1 V c t.val t.isLt).2 := by
  have h0 : ¬t.val % 16 = 0 := by omega
  rw [outsAt1_C V c t h0 h15, outsC1_sum, outsC1_scr]

theorem flushed1_2 (c : Dev nD) (t : Fin cfg1.N) (hf : (cfg1.win 2).flush t = true) :
    (dat1 V c).flushed 2 t = ((cfg1.win 2).blk t).view.read (Elt Ideal) (sqArr (xq3 V c) (mean3 V c)) := by
  have h15 : t.val % 16 = 15 := (flush1_2 t).mp hf
  obtain ⟨-, -, -, -, -, -, e0, e1, e2⟩ := idx1 t
  show (cfg1.win 2).cut (grid1.coords t) ((dat1 V c).after 2 t) = _
  rw [after1_2, sum1_at V c t h15]
  funext y
  obtain ⟨u, j, w, rfl⟩ : ∃ (u : Fin 1) (j : Fin 128) (w : Fin 1), y = ix3 u j w := ⟨y 0, y 1, y 2, eq_ix3 y⟩
  obtain rfl : u = 0 := Subsingleton.elim _ _
  obtain rfl : w = 0 := Subsingleton.elim _ _
  show (outsAt1 V c t.val t.isLt).2 (ix3 (0 : Fin 1) j (0 : Fin 1)) = sqArr (xq3 V c) (mean3 V c) (((cfg1.win 2).blk t).view.emb (ix3 (0 : Fin 1) j (0 : Fin 1)))
  rw [scr1_total V c t h15 j]
  unfold sqArr
  have hc : (chanOf t.val (lt_of_lt_of_eq t.isLt N_1) j) = ⟨((((cfg1.win 2).blk t).view.emb (ix3 (0 : Fin 1) j (0 : Fin 1))) 1).val, ((((cfg1.win 2).blk t).view.emb (ix3 (0 : Fin 1) j (0 : Fin 1))) 1).isLt⟩ :=
    Fin.ext (by show t.val / 16 * 128 + j.val = win1_2.index t (1 : Fin 3) * 128 + 1 * j.val; rw [e1]; omega)
  rw [hc]

theorem cover1_2 (i : S1x256x1.Idx) : ∃ t : Fin cfg1.N, (cfg1.win 2).flush t = true ∧ i ∈ ((cfg1.win 2).blk t).view.set := by
  have hN : cfg1.N = 32 := N_1
  have h0 : (i 0).val < 1 := (i 0).isLt
  have h1 : (i 1).val < 256 := (i 1).isLt
  have h2 : (i 2).val < 1 := (i 2).isLt
  have ht : (i 1).val / 128 * 16 + 15 < cfg1.N := by omega
  obtain ⟨-, -, -, -, -, -, e0, e1, e2⟩ := idx1 ⟨(i 1).val / 128 * 16 + 15, ht⟩
  refine ⟨⟨(i 1).val / 128 * 16 + 15, ht⟩, (flush1_2 _).mpr (by show ((i 1).val / 128 * 16 + 15) % 16 = 15; omega), ?_⟩
  show i ∈ ((View.whole main_v6).slice (win1_2.rect ⟨(i 1).val / 128 * 16 + 15, ht⟩)).set
  rw [View.set_slice_whole, Rect.mem_set_unit]
  intro a
  match a with
  | ⟨0, _⟩ =>
    show win1_2.index ⟨(i 1).val / 128 * 16 + 15, ht⟩ (0 : Fin 3) * 1 ≤ (i 0).val ∧ (i 0).val < win1_2.index ⟨(i 1).val / 128 * 16 + 15, ht⟩ (0 : Fin 3) * 1 + 1
    rw [e0]; omega
  | ⟨1, _⟩ =>
    show win1_2.index ⟨(i 1).val / 128 * 16 + 15, ht⟩ (1 : Fin 3) * 128 ≤ (i 1).val ∧ (i 1).val < win1_2.index ⟨(i 1).val / 128 * 16 + 15, ht⟩ (1 : Fin 3) * 128 + 128
    rw [e1]; show ((i 1).val / 128 * 16 + 15) / 16 * 128 ≤ (i 1).val ∧ (i 1).val < ((i 1).val / 128 * 16 + 15) / 16 * 128 + 128; omega
  | ⟨2, _⟩ =>
    show win1_2.index ⟨(i 1).val / 128 * 16 + 15, ht⟩ (2 : Fin 3) * 1 ≤ (i 2).val ∧ (i 2).val < win1_2.index ⟨(i 1).val / 128 * 16 + 15, ht⟩ (2 : Fin 3) * 1 + 1
    rw [e2]; omega

/-- The sum output after the region: the per-channel totals of the squared deviations. -/
theorem final1_2 (c : Dev nD) : (dat1 V c).arrAt 2 cfg1.N = sqArr (xq3 V c) (mean3 V c) :=
  (dat1 V c).arrAt_eq_of_cover 2 (sqArr (xq3 V c) (mean3 V c)) (flushed1_2 V c) cover1_2

end Region1

end Cert.KernelIdeal.Fr

end
-- ==== Proof.KI.V2Arr.lean ====
/-
  Region 2 at the exact values: its output array when the region ends. Each grid point reads two batch rows of
  the quantized tensor and the four per-channel columns whole, and writes the rows normalized:
  ((x - mean) * scale) * gain + shift, the columns read at the element's channel.
-/
import proofs.«177003_j180388626588_2_alg».proof.Proof.KI.V1Arr

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.ChannelSums

/-- The printed index maps of region 2, decided over the grid. -/
theorem idx2 : ∀ t : Fin cfg2.N,
    win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 3) = 0 ∧ win2_3.index t (1 : Fin 3) = 0 ∧ win2_3.index t (2 : Fin 3) = 0
    ∧ win2_4.index t (0 : Fin 3) = 0 ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-- A [64, 256, 3136] tensor normalized channel by channel with four [1, 256, 1] columns. -/
def normArr (X : S64x256x3136.Idx → EReal) (M S G B : S1x256x1.Idx → EReal) : S64x256x3136.Idx → EReal :=
  fun i => ((X i - M (ix3 (0 : Fin 1) ⟨(i 1).val, (i 1).isLt⟩ (0 : Fin 1))) * S (ix3 (0 : Fin 1) ⟨(i 1).val, (i 1).isLt⟩ (0 : Fin 1)))
      * G (ix3 (0 : Fin 1) ⟨(i 1).val, (i 1).isLt⟩ (0 : Fin 1))
    + B (ix3 (0 : Fin 1) ⟨(i 1).val, (i 1).isLt⟩ (0 : Fin 1))

section Region2

variable (V : (c : Dev nD) → (b : Ref sig .tc) → Buf (Elt Ideal) ((c : Thread nD τ).loc b))

abbrev scale3 (c : Dev nD) : S1x256x1.Idx → EReal := V c main_v17
abbrev gain3 (c : Dev nD) : S1x256x1.Idx → EReal := V c main_v20
abbrev shift3 (c : Dev nD) : S1x256x1.Idx → EReal := V c main_v21
abbrev blk2_0 (c : Dev nD) (t : Fin cfg2.N) : S2x256x3136.Idx → EReal := iblk2 V c 0 t
abbrev blk2_1 (c : Dev nD) (t : Fin cfg2.N) : S1x256x1.Idx → EReal := iblk2 V c 1 t
abbrev blk2_2 (c : Dev nD) (t : Fin cfg2.N) : S1x256x1.Idx → EReal := iblk2 V c 2 t
abbrev blk2_3 (c : Dev nD) (t : Fin cfg2.N) : S1x256x1.Idx → EReal := iblk2 V c 3 t
abbrev blk2_4 (c : Dev nD) (t : Fin cfg2.N) : S1x256x1.Idx → EReal := iblk2 V c 4 t

/-- The batch row of row `p` of the block of grid point `t`. -/
def row2 (t : Fin cfg2.N) (p : Fin 2) : Fin 64 :=
  ⟨t.val * 2 + p.val, by have := lt_of_lt_of_eq t.isLt N_2; have := p.isLt; omega⟩

theorem iblk2_0_apply (c : Dev nD) (t : Fin cfg2.N) (p : Fin 2) (j : Fin 256) (q : Fin 3136) :
    blk2_0 V c t (ix3 p j q) = xq3 V c (ix3 (row2 t p) j q) := by
  obtain ⟨e0, e1, e2, -⟩ := idx2 t
  show V c main_v1_1 (((cfg2.win 0).blk t).view.emb (ix3 p j q)) = _
  refine congrArg _ (funext fun a => Fin.ext ?_)
  match a with
  | ⟨0, _⟩ => show win2_0.index t (0 : Fin 3) * 2 + 1 * p.val = t.val * 2 + p.val; rw [e0]; omega
  | ⟨1, _⟩ => show win2_0.index t (1 : Fin 3) * 256 + 1 * j.val = j.val; rw [e1]; omega
  | ⟨2, _⟩ => show win2_0.index t (2 : Fin 3) * 3136 + 1 * q.val = q.val; rw [e2]; omega

theorem iblk2_1_apply (c : Dev nD) (t : Fin cfg2.N) (j : Fin 256) :
    blk2_1 V c t (ix3 (0 : Fin 1) j (0 : Fin 1)) = mean3 V c (ix3 (0 : Fin 1) j (0 : Fin 1)) := by
  obtain ⟨-, -, -, e0, e1, e2, -⟩ := idx2 t
  show V c main_v5 (((cfg2.win 1).blk t).view.emb (ix3 (0 : Fin 1) j (0 : Fin 1))) = _
  refine congrArg _ (funext fun a => Fin.ext ?_)
  match a with
  | ⟨0, _⟩ => show win2_1.index t (0 : Fin 3) * 1 + 1 * 0 = 0; rw [e0]
  | ⟨1, _⟩ => show win2_1.index t (1 : Fin 3) * 256 + 1 * j.val = j.val; rw [e1]; omega
  | ⟨2, _⟩ => show win2_1.index t (2 : Fin 3) * 1 + 1 * 0 = 0; rw [e2]

theorem iblk2_2_apply (c : Dev nD) (t : Fin cfg2.N) (j : Fin 256) :
    blk2_2 V c t (ix3 (0 : Fin 1) j (0 : Fin 1)) = scale3 V c (ix3 (0 : Fin 1) j (0 : Fin 1)) := by
  obtain ⟨-, -, -, -, -, -, e0, e1, e2, -⟩ := idx2 t
  show V c main_v17 (((cfg2.win 2).blk t).view.emb (ix3 (0 : Fin 1) j (0 : Fin 1))) = _
  refine congrArg _ (funext fun a => Fin.ext ?_)
  match a with
  | ⟨0, _⟩ => show win2_2.index t (0 : Fin 3) * 1 + 1 * 0 = 0; rw [e0]
  | ⟨1, _⟩ => show win2_2.index t (1 : Fin 3) * 256 + 1 * j.val = j.val; rw [e1]; omega
  | ⟨2, _⟩ => show win2_2.index t (2 : Fin 3) * 1 + 1 * 0 = 0; rw [e2]

theorem iblk2_3_apply (c : Dev nD) (t : Fin cfg2.N) (j : Fin 256) :
    blk2_3 V c t (ix3 (0 : Fin 1) j (0 : Fin 1)) = gain3 V c (ix3 (0 : Fin 1) j (0 : Fin 1)) := by
  obtain ⟨-, -, -, -, -, -, -, -, -, e0, e1, e2, -⟩ := idx2 t
  show V c main_v20 (((cfg2.win 3).blk t).view.emb (ix3 (0 : Fin 1) j (0 : Fin 1))) = _
  refine congrArg _ (funext fun a => Fin.ext ?_)
  match a with
  | ⟨0, _⟩ => show win2_3.index t (0 : Fin 3) * 1 + 1 * 0 = 0; rw [e0]
  | ⟨1, _⟩ => show win2_3.index t (1 : Fin 3) * 256 + 1 * j.val = j.val; rw [e1]; omega
  | ⟨2, _⟩ => show win2_3.index t (2 : Fin 3) * 1 + 1 * 0 = 0; rw [e2]

theorem iblk2_4_apply (c : Dev nD) (t : Fin cfg2.N) (j : Fin 256) :
    blk2_4 V c t (ix3 (0 : Fin 1) j (0 : Fin 1)) = shift3 V c (ix3 (0 : Fin 1) j (0 : Fin 1)) := by
  obtain ⟨-, -, -, -, -, -, -, -, -, -, -, -, e0, e1, e2, -⟩ := idx2 t
  show V c main_v21 (((cfg2.win 4).blk t).view.emb (ix3 (0 : Fin 1) j (0 : Fin 1))) = _
  refine congrArg _ (funext fun a => Fin.ext ?_)
  match a with
  | ⟨0, _⟩ => show win2_4.index t (0 : Fin 3) * 1 + 1 * 0 = 0; rw [e0]
  | ⟨1, _⟩ => show win2_4.index t (1 : Fin 3) * 256 + 1 * j.val = j.val; rw [e1]; omega
  | ⟨2, _⟩ => show win2_4.index t (2 : Fin 3) * 1 + 1 * 0 = 0; rw [e2]

/-- Where row `p`, channel `j`, position `q` of grid point `t`'s output block sits in the output tensor. -/
theorem emb2_5 (t : Fin cfg2.N) (p : Fin 2) (j : Fin 256) (q : Fin 3136) :
    ((cfg2.win 5).blk t).view.emb (ix3 p j q) = ix3 (row2 t p) j q := by
  obtain ⟨-, -, -, -, -, -, -, -, -, -, -, -, -, -, -, e0, e1, e2⟩ := idx2 t
  funext a; apply Fin.ext
  match a with
  | ⟨0, _⟩ => show win2_5.index t (0 : Fin 3) * 2 + 1 * p.val = t.val * 2 + p.val; rw [e0]; omega
  | ⟨1, _⟩ => show win2_5.index t (1 : Fin 3) * 256 + 1 * j.val = j.val; rw [e1]; omega
  | ⟨2, _⟩ => show win2_5.index t (2 : Fin 3) * 3136 + 1 * q.val = q.val; rw [e2]; omega

theorem flushed2_5 (c : Dev nD) (t : Fin cfg2.N) (hf : (cfg2.win 5).flush t = true) :
    (dat2 V c).flushed 5 t
      = ((cfg2.win 5).blk t).view.read (Elt Ideal) (normArr (xq3 V c) (mean3 V c) (scale3 V c) (gain3 V c) (shift3 V c)) := by
  show (cfg2.win 5).cut (grid2.coords t) ((dat2 V c).after 5 t) = _
  rw [after2_5, out2_5_eq]
  funext y
  obtain ⟨p, j, q, rfl⟩ : ∃ (p : Fin 2) (j : Fin 256) (q : Fin 3136), y = ix3 p j q := ⟨y 0, y 1, y 2, eq_ix3 y⟩
  show k2_pay1 (F := Ideal) (blk2_0 V c t) (blk2_1 V c t) (blk2_2 V c t) (blk2_3 V c t) (blk2_4 V c t) (ix3 p j q)
    = normArr (xq3 V c) (mean3 V c) (scale3 V c) (gain3 V c) (shift3 V c) (((cfg2.win 5).blk t).view.emb (ix3 p j q))
  rw [k2_pay1_apply, iblk2_0_apply, iblk2_1_apply, iblk2_2_apply, iblk2_3_apply, iblk2_4_apply, emb2_5]
  rfl

theorem cover2_5' (i : S64x256x3136.Idx) : ∃ t : Fin cfg2.N, (cfg2.win 5).flush t = true ∧ i ∈ ((cfg2.win 5).blk t).view.set := by
  have hN : cfg2.N = 32 := N_2
  have h0 : (i 0).val < 64 := (i 0).isLt
  have h1 : (i 1).val < 256 := (i 1).isLt
  have h2 : (i 2).val < 3136 := (i 2).isLt
  have ht : (i 0).val / 2 < cfg2.N := by omega
  obtain ⟨-, -, -, -, -, -, -, -, -, -, -, -, -, -, -, e0, e1, e2⟩ := idx2 ⟨(i 0).val / 2, ht⟩
  refine ⟨⟨(i 0).val / 2, ht⟩, flush2_5 _, ?_⟩
  show i ∈ ((View.whole main_v22).slice (win2_5.rect ⟨(i 0).val / 2, ht⟩)).set
  rw [View.set_slice_whole, Rect.mem_set_unit]
  intro a
  match a with
  | ⟨0, _⟩ =>
    show win2_5.index ⟨(i 0).val / 2, ht⟩ (0 : Fin 3) * 2 ≤ (i 0).val ∧ (i 0).val < win2_5.index ⟨(i 0).val / 2, ht⟩ (0 : Fin 3) * 2 + 2
    rw [e0]; show (i 0).val / 2 * 2 ≤ (i 0).val ∧ (i 0).val < (i 0).val / 2 * 2 + 2; omega
  | ⟨1, _⟩ =>
    show win2_5.index ⟨(i 0).val / 2, ht⟩ (1 : Fin 3) * 256 ≤ (i 1).val ∧ (i 1).val < win2_5.index ⟨(i 0).val / 2, ht⟩ (1 : Fin 3) * 256 + 256
    rw [e1]; omega
  | ⟨2, _⟩ =>
    show win2_5.index ⟨(i 0).val / 2, ht⟩ (2 : Fin 3) * 3136 ≤ (i 2).val ∧ (i 2).val < win2_5.index ⟨(i 0).val / 2, ht⟩ (2 : Fin 3) * 3136 + 3136
    rw [e2]; omega

/-- The output tensor after the region: the quantized tensor normalized with the four columns. -/
theorem final2_5 (c : Dev nD) :
    (dat2 V c).arrAt 5 cfg2.N = normArr (xq3 V c) (mean3 V c) (scale3 V c) (gain3 V c) (shift3 V c) :=
  (dat2 V c).arrAt_eq_of_cover 5 _ (flushed2_5 V c) cover2_5'

end Region2

end Cert.KernelIdeal.Fr

end
-- ==== Proof.KI.Run.lean ====
/-
  The whole run: @main as four stretches of host operations around the three regions. The contents of every
  unscoped buffer are followed from the launch memory through each stretch and each region; the run ends with
  every unscoped buffer at the last of these contents.
-/
import proofs.«177003_j180388626588_2_alg».proof.Proof.KI.R0Frame
import proofs.«177003_j180388626588_2_alg».proof.Proof.KI.R1Frame
import proofs.«177003_j180388626588_2_alg».proof.Proof.KI.R2
import proofs.«177003_j180388626588_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the input (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- At region 0's exit: its arrays at what the pipeline leaves (an input as entered, an output's write-backs
    folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the mean is formed from the sums (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b

/-- At region 1's exit: its arrays at what the pipeline leaves (an input as entered, an output's write-backs
    folded), every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the variance, the scale, the gain and the shift columns are formed (region 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b

/-- At region 2's exit: its arrays at what the pipeline leaves (an input as entered, an output's write-backs
    folded), every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After the final reshape: the contents the program ends with. -/
abbrev W7 : Dev nD → Valuation τ sig (Elt F) := fun c => StableHlo.after hostOps3 (W6 m ρ c)

/-- A buffer that no host stretch writes and that is no array of any region ends as launched. -/
theorem W7_of_untouched (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rz (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the contents before it, left with them at
    the contents after it. Its arrays are split out of the unscoped buffers and put back at their exit contents; the
    generator register goes into the region invariant and comes back; nothing is owed; the kernel has no semaphore of its own. -/
def reg0 : Pipeline.RegionSeg (pcfgs (F := F)) adm (pdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ Pipeline.ΦA spec0 c := hout0 (E1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at their exit contents; the
    generator register goes into the region invariant and comes back; nothing is owed; the kernel has no semaphore of its own. -/
def reg1 : Pipeline.RegionSeg (pcfgs (F := F)) adm (pdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ Pipeline.ΦA spec1 c := hout1 (E3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it. Its arrays are split out of the unscoped buffers and put back at their exit contents; the
    generator register goes into the region invariant and comes back; nothing is owed; the kernel has no semaphore of its own. -/
def reg2 : Pipeline.RegionSeg (pcfgs (F := F)) adm (pdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (W5 m ρ c) ∗ Rz c)
  post c := iprop(StableHlo.held (c : Thread nD τ) (Pipeline.ucRefs τ sig) (W6 m ρ c) ∗ Rz c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (pdats m ρ 2 c).Φ (Fin.last _) ⊢ Pipeline.ΦA spec2 c := .rfl
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segments : List (Pipeline.Seg (pcfgs (F := F)) adm (pdats m ρ) () defs₀ Variants.none Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segments m ρ) := (main_chain c).trans (by chain_rfl)

set_option backward.isDefEq.respectTransparency.types false in
/-- From any memory with zero counters every weakly fair execution of @main terminates, nothing faulting, and every
    final state has every unscoped buffer of every core at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ Variants.none Lz lvz m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ Rz c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Fr

end
-- ==== Proof.KI.VChain.lean ====
/-
  The idealized kernel's result as one function of its three arguments: the contents of each buffer the later
  stages read are followed from the launch memory through the four stretches of host operations and the three regions.
  With x the input set as [64, 256, 3136]: the totals column is the per-channel sum of x; the mean column is the
  totals over the count; the second totals column is the per-channel sum of squared deviations from the mean; the
  scale column is one over the root of (that over the count, plus epsilon); the result is x normalized with the
  mean, the scale, the gain and the shift, set back as [64, 256, 56, 56].
-/
import proofs.«177003_j180388626588_2_alg».proof.Proof.KI.V2Arr
import proofs.«177003_j180388626588_2_alg».proof.Proof.KI.Run
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.ChannelSums

/-- The mean column from the totals column: the totals over the element count, through bf16 and back. -/
def meanCol (S : S1x256x1.Idx → EReal) : S1x256x1.Idx → EReal :=
  extf .f32 (truncf .bf16 (Host.divf (F := Ideal) S (broadcastInDim S1x256x1 ![] bcast_S_S1x256x1 (constant (F := Ideal) S_ .f32 0x48440000#32))) bitsLt_bf16_f32) bitsLt_bf16_f32

/-- The scale column from the totals of squared deviations: one over the root of the variance plus epsilon. -/
def scaleCol (Q : S1x256x1.Idx → EReal) : S1x256x1.Idx → EReal :=
  Host.divf (F := Ideal) (broadcastInDim S1x256x1 ![] bcast_S_S1x256x1 (constant (F := Ideal) S_ .f32 0x3F800000#32))
    (Host.sqrt (F := Ideal) (addf (extf .f32 (truncf .bf16 (Host.divf (F := Ideal) (extf .f32 (truncf .bf16 Q bitsLt_bf16_f32) bitsLt_bf16_f32)
      (broadcastInDim S1x256x1 ![] bcast_S_S1x256x1 (constant (F := Ideal) S_ .f32 0x48440000#32))) bitsLt_bf16_f32) bitsLt_bf16_f32)
      (broadcastInDim S1x256x1 ![] bcast_S_S1x256x1 (constant (F := Ideal) S_ .f32 0x3727C5AC#32))))

/-- The gain column: the weights through bf16 and back, set as a column. -/
def gainCol (w : S256.Idx → EReal) : S1x256x1.Idx → EReal :=
  shapeCast S1x256x1 (extf .f32 (truncf .bf16 (w : FVec Ideal S256 .f32) bitsLt_bf16_f32) bitsLt_bf16_f32 : FVec Ideal S256 .f32) shapeCasts_S256_S1x256x1
/-- The shift column: the biases set as a column. -/
def shiftCol (b : S256.Idx → EReal) : S1x256x1.Idx → EReal := shapeCast S1x256x1 b shapeCasts_S256_S1x256x1
/-- The input set as [64, 256, 3136]. -/
def flat3 (a : S64x256x56x56.Idx → EReal) : S64x256x3136.Idx → EReal := shapeCast S64x256x3136 a shapeCasts_S64x256x56x56_S64x256x3136

/-- The kernel's result from its three arguments. -/
def kernelVal (a0 : S64x256x56x56.Idx → EReal) (a1 a2 : S256.Idx → EReal) : S64x256x56x56.Idx → EReal :=
  shapeCast S64x256x56x56
    (normArr (flat3 a0) (meanCol (sumArr (flat3 a0))) (scaleCol (sqArr (flat3 a0) (meanCol (sumArr (flat3 a0))))) (gainCol a1) (shiftCol a2))
    shapeCasts_S64x256x3136_S64x256x56x56

variable (m : (ℓ : Loc nD τ sig) → Buf (Elt Ideal) ℓ) (ρ : Dev nD → PrngReg)

/-- A buffer that neither of the first two host stretches writes and that is no array of regions 0 and 1 still holds its
    launch contents when region 1 ends. -/
theorem W4_of_untouched (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

theorem W1_v0 (c : Dev nD) : (W1 m ρ c (Proc.devRef .tc main_v0) : S64x256x3136.Idx → EReal) = flat3 (m ((c : Thread nD τ).loc main_arg0)) := by
  show StableHlo.after hostOps0 (W0 m ρ c) (Proc.devRef .tc main_v0) = _
  after_results
  rfl

theorem W2_v1_0 (c : Dev nD) : (W2 m ρ c (Proc.devRef .tc main_v1_0) : S1x256x1.Idx → EReal) = sumArr (flat3 (m ((c : Thread nD τ).loc main_arg0))) :=
  (W2_arr m ρ c 1).trans ((final0_1 (E1 m ρ) c).trans (congrArg sumArr (W1_v0 m ρ c)))

theorem W2_v1_1 (c : Dev nD) : (W2 m ρ c (Proc.devRef .tc main_v1_1) : S64x256x3136.Idx → EReal) = flat3 (m ((c : Thread nD τ).loc main_arg0)) :=
  (W2_arr m ρ c 2).trans ((final0_2 (E1 m ρ) c).trans (W1_v0 m ρ c))

theorem W3_v5 (c : Dev nD) : (W3 m ρ c (Proc.devRef .tc main_v5) : S1x256x1.Idx → EReal) = meanCol (sumArr (flat3 (m ((c : Thread nD τ).loc main_arg0)))) := by
  rw [← W2_v1_0 m ρ c]
  show StableHlo.after hostOps1 (W2 m ρ c) (Proc.devRef .tc main_v5) = _
  after_results
  rfl

theorem W3_v1_1 (c : Dev nD) : (W3 m ρ c (Proc.devRef .tc main_v1_1) : S64x256x3136.Idx → EReal) = flat3 (m ((c : Thread nD τ).loc main_arg0)) :=
  (StableHlo.after_of_writes_sub hostOps1 _ hostOps1_writes (by decide)).trans (W2_v1_1 m ρ c)

theorem W4_v6 (c : Dev nD) : (W4 m ρ c (Proc.devRef .tc main_v6) : S1x256x1.Idx → EReal)
    = sqArr (flat3 (m ((c : Thread nD τ).loc main_arg0))) (meanCol (sumArr (flat3 (m ((c : Thread nD τ).loc main_arg0))))) :=
  (W4_arr m ρ c 2).trans ((final1_2 (E3 m ρ) c).trans (congrArg₂ sqArr (W3_v1_1 m ρ c) (W3_v5 m ρ c)))

theorem W4_v1_1 (c : Dev nD) : (W4 m ρ c (Proc.devRef .tc main_v1_1) : S64x256x3136.Idx → EReal) = flat3 (m ((c : Thread nD τ).loc main_arg0)) :=
  (W4_arr m ρ c 0).trans ((((dat1 (E3 m ρ) c).arrAt_in 0 rfl _).trans (A_eq1 (E3 m ρ) c 0)).trans (W3_v1_1 m ρ c))

theorem W4_v5 (c : Dev nD) : (W4 m ρ c (Proc.devRef .tc main_v5) : S1x256x1.Idx → EReal) = meanCol (sumArr (flat3 (m ((c : Thread nD τ).loc main_arg0)))) :=
  (W4_arr m ρ c 1).trans ((((dat1 (E3 m ρ) c).arrAt_in 1 rfl _).trans (A_eq1 (E3 m ρ) c 1)).trans (W3_v5 m ρ c))

theorem W5_v17 (c : Dev nD) : (W5 m ρ c (Proc.devRef .tc main_v17) : S1x256x1.Idx → EReal)
    = scaleCol (sqArr (flat3 (m ((c : Thread nD τ).loc main_arg0))) (meanCol (sumArr (flat3 (m ((c : Thread nD τ).loc main_arg0)))))) := by
  rw [← W4_v6 m ρ c]
  show StableHlo.after hostOps2 (W4 m ρ c) (Proc.devRef .tc main_v17) = _
  after_results
  rfl

theorem W5_v20 (c : Dev nD) : (W5 m ρ c (Proc.devRef .tc main_v20) : S1x256x1.Idx → EReal) = gainCol (m ((c : Thread nD τ).loc main_arg1)) := by
  rw [← W4_of_untouched m ρ c main_arg1 (by decide) (by decide) (by decide) (by decide)]
  show StableHlo.after hostOps2 (W4 m ρ c) (Proc.devRef .tc main_v20) = _
  after_results
  rfl

theorem W5_v21 (c : Dev nD) : (W5 m ρ c (Proc.devRef .tc main_v21) : S1x256x1.Idx → EReal) = shiftCol (m ((c : Thread nD τ).loc main_arg2)) := by
  rw [← W4_of_untouched m ρ c main_arg2 (by decide) (by decide) (by decide) (by decide)]
  show StableHlo.after hostOps2 (W4 m ρ c) (Proc.devRef .tc main_v21) = _
  after_results
  rfl

theorem W5_v1_1 (c : Dev nD) : (W5 m ρ c (Proc.devRef .tc main_v1_1) : S64x256x3136.Idx → EReal) = flat3 (m ((c : Thread nD τ).loc main_arg0)) :=
  (StableHlo.after_of_writes_sub hostOps2 _ hostOps2_writes (by decide)).trans (W4_v1_1 m ρ c)

theorem W5_v5 (c : Dev nD) : (W5 m ρ c (Proc.devRef .tc main_v5) : S1x256x1.Idx → EReal) = meanCol (sumArr (flat3 (m ((c : Thread nD τ).loc main_arg0)))) :=
  (StableHlo.after_of_writes_sub hostOps2 _ hostOps2_writes (by decide)).trans (W4_v5 m ρ c)

theorem W6_v22 (c : Dev nD) : (W6 m ρ c (Proc.devRef .tc main_v22) : S64x256x3136.Idx → EReal)
    = normArr (flat3 (m ((c : Thread nD τ).loc main_arg0))) (meanCol (sumArr (flat3 (m ((c : Thread nD τ).loc main_arg0)))))
        (scaleCol (sqArr (flat3 (m ((c : Thread nD τ).loc main_arg0))) (meanCol (sumArr (flat3 (m ((c : Thread nD τ).loc main_arg0)))))))
        (gainCol (m ((c : Thread nD τ).loc main_arg1))) (shiftCol (m ((c : Thread nD τ).loc main_arg2))) := by
  refine (W6_arr m ρ c 5).trans ((final2_5 (E5 m ρ) c).trans ?_)
  show normArr (W5 m ρ c (Proc.devRef .tc main_v1_1)) (W5 m ρ c (Proc.devRef .tc main_v5)) (W5 m ρ c (Proc.devRef .tc main_v17))
    (W5 m ρ c (Proc.devRef .tc main_v20)) (W5 m ρ c (Proc.devRef .tc main_v21)) = _
  rw [W5_v1_1 m ρ c, W5_v5 m ρ c, W5_v17 m ρ c, W5_v20 m ρ c, W5_v21 m ρ c]

/-- The program's result buffer ends at the kernel's value of the three arguments. -/
theorem W7_v23 (c : Dev nD) : (W7 m ρ c (Proc.devRef .tc main_v23) : S64x256x56x56.Idx → EReal)
    = kernelVal (m ((c : Thread nD τ).loc main_arg0)) (m ((c : Thread nD τ).loc main_arg1)) (m ((c : Thread nD τ).loc main_arg2)) := by
  unfold kernelVal
  rw [← W6_v22 m ρ c]
  show StableHlo.after hostOps3 (W6 m ρ c) (Proc.devRef .tc main_v23) = _
  after_results
  rfl

end Cert.KernelIdeal.Fr

end
-- ==== Proof.KI.Bridge.lean ====
/-
  The two sides are one function. Index by index the idealized kernel's result and the reference's result are
  ((x - mean) * scale) * gain + shift at the element's channel. The means agree because both totals are the sum of
  the input over the batch and the plane of the channel: the kernel's is taken over the input set as [64, 256, 3136],
  row by row of the flattened plane, the reference's over the [64, 256, 56, 56] input directly, and a sum over 3136
  positions is the double sum over 56 rows of 56. The scales agree for the same reason, the summand being the squared
  deviation from that mean. Addition on the extended reals is commutative and associative, so no finiteness is used.
-/
import proofs.«177003_j180388626588_2_alg».proof.Proof.KI.VChain
import proofs.«177003_j180388626588_2_alg».proof.Proof.Gen.ReferenceIdeal.Read

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.ChannelSums

/-- The channel's index in the reference's [1, 256, 1, 1] columns. -/
abbrev col4 (ch : Fin 256) : (⟨4, ![1, 256, 1, 1]⟩ : Shape).Idx := ix4 (0 : Fin 1) ch (0 : Fin 1) (0 : Fin 1)

/-- The input set as [64, 256, 3136] at (n, ch, 56 p + q) is the input at (n, ch, p, q). -/
theorem flat3_apply (a : S64x256x56x56.Idx → EReal) (n : Fin 64) (ch : Fin 256) (p q : Fin 56) :
    flat3 a (ix3 n ch (⟨p.val * 56 + q.val, split_lt p q⟩ : Fin 3136)) = a (ix4 n ch p q) :=
  shapeCast_apply a shapeCasts_S64x256x56x56_S64x256x3136 _ _ (by
    rw [Shape.rowMajor_val_four, Shape.rowMajor_val_three]
    show ((n.val * 256 + ch.val) * 56 + p.val) * 56 + q.val = (n.val * 256 + ch.val) * 3136 + (p.val * 56 + q.val)
    omega)

/-- The kernel's totals column at a channel, over the original four axes. -/
theorem sumArr_flat3 (a : S64x256x56x56.Idx → EReal) (ch : Fin 256) :
    sumArr (flat3 a) (ix3 (0 : Fin 1) ch (0 : Fin 1)) = ∑ n : Fin 64, ∑ p : Fin 56, ∑ q : Fin 56, a (ix4 n ch p q) := by
  unfold sumArr
  refine Finset.sum_congr rfl fun n _ => ?_
  refine (sum_split (K := 56) (B := 56) (N := 3136) rfl _).trans ?_
  exact Finset.sum_congr rfl fun p _ => Finset.sum_congr rfl fun q _ => flat3_apply a n ch p q

/-- The kernel's second totals column at a channel, over the original four axes. -/
theorem sqArr_flat3 (a : S64x256x56x56.Idx → EReal) (M : S1x256x1.Idx → EReal) (ch : Fin 256) :
    sqArr (flat3 a) M (ix3 (0 : Fin 1) ch (0 : Fin 1))
      = ∑ n : Fin 64, ∑ p : Fin 56, ∑ q : Fin 56,
          (a (ix4 n ch p q) - M (ix3 (0 : Fin 1) ch (0 : Fin 1))) * (a (ix4 n ch p q) - M (ix3 (0 : Fin 1) ch (0 : Fin 1))) := by
  unfold sqArr
  refine Finset.sum_congr rfl fun n _ => ?_
  refine (sum_split (K := 56) (B := 56) (N := 3136) rfl _).trans ?_
  refine Finset.sum_congr rfl fun p _ => Finset.sum_congr rfl fun q _ => ?_
  show (flat3 a (ix3 n ch (⟨p.val * 56 + q.val, split_lt p q⟩ : Fin 3136)) - M (ix3 (0 : Fin 1) ch (0 : Fin 1)))
      * (flat3 a (ix3 n ch (⟨p.val * 56 + q.val, split_lt p q⟩ : Fin 3136)) - M (ix3 (0 : Fin 1) ch (0 : Fin 1))) = _
  rw [flat3_apply]

/-- The reference's totals at a channel. -/
theorem ref_sum (a : S64x256x56x56.Idx → EReal) (ch : Fin 256) :
    Cert.ReferenceIdeal.Read.val_main_v6 (F := Ideal) a (ix1 ch) = ∑ n : Fin 64, ∑ p : Fin 56, ∑ q : Fin 56, a (ix4 n ch p q) := by
  unfold Cert.ReferenceIdeal.Read.val_main_v6
  refine (hostReduceAdd_channel (Cert.ReferenceIdeal.Read.val_main_v1 (F := Ideal) a) (Cert.ReferenceIdeal.Read.val_main_cst (F := Ideal))
    _ _ ch).trans ?_
  show Ideal.ofBits .f32 0x00000000#32 + _ = _
  rw [Ideal.ofBits_zero_f32, zero_add]
  rfl

/-- The two means at a channel. -/
theorem mean_eq (a : S64x256x56x56.Idx → EReal) (ch : Fin 256) :
    meanCol (sumArr (flat3 a)) (ix3 (0 : Fin 1) ch (0 : Fin 1)) = Cert.ReferenceIdeal.Read.val_main_v10 (F := Ideal) a (ix1 ch) := by
  have hb : (broadcastInDim S1x256x1 ![] bcast_S_S1x256x1 (constant (F := Ideal) S_ .f32 0x48440000#32) : S1x256x1.Idx → EReal)
      (ix3 (0 : Fin 1) ch (0 : Fin 1)) = Ideal.ofBits .f32 0x48440000#32 :=
    broadcastInDim_apply _ bcast_S_S1x256x1 _ _ (fun a => a.elim0) (fun a => a.elim0)
  have hr : (Cert.ReferenceIdeal.Read.val_main_v7 (F := Ideal) (ix1 ch) : EReal) = Ideal.ofBits .f32 0x48440000#32 := by
    rw [Cert.ReferenceIdeal.Read.val_main_v7_apply]; rfl
  show FloatOps.hostDivf (F := Ideal) (φ := .f32) (sumArr (flat3 a) (ix3 (0 : Fin 1) ch (0 : Fin 1)))
      ((broadcastInDim S1x256x1 ![] bcast_S_S1x256x1 (constant (F := Ideal) S_ .f32 0x48440000#32) : S1x256x1.Idx → EReal) (ix3 (0 : Fin 1) ch (0 : Fin 1)))
    = FloatOps.hostDivf (F := Ideal) (φ := .f32) (Cert.ReferenceIdeal.Read.val_main_v6 (F := Ideal) a (ix1 ch)) (Cert.ReferenceIdeal.Read.val_main_v7 (F := Ideal) (ix1 ch))
  rw [hb, hr, sumArr_flat3, ref_sum]

/-! ## Index bookkeeping of the reference's reshapes and broadcasts -/

theorem flatcol_v4 (ch : Fin 256) : Cert.ReferenceIdeal.Read.idx_main_v4 (col4 ch) = ix1 ch := funext fun d => by
  match d with
  | ⟨0, _⟩ => exact Fin.ext (by show ((0 * 256 + ch.val) * 1 + 0) * 1 + 0 = ch.val; omega)
theorem flatcol_v5 (ch : Fin 256) : Cert.ReferenceIdeal.Read.idx_main_v5 (col4 ch) = ix1 ch := funext fun d => by
  match d with
  | ⟨0, _⟩ => exact Fin.ext (by show ((0 * 256 + ch.val) * 1 + 0) * 1 + 0 = ch.val; omega)
theorem flatcol_v11 (ch : Fin 256) : Cert.ReferenceIdeal.Read.idx_main_v11 (col4 ch) = ix1 ch := funext fun d => by
  match d with
  | ⟨0, _⟩ => exact Fin.ext (by show ((0 * 256 + ch.val) * 1 + 0) * 1 + 0 = ch.val; omega)
theorem flatcol_v24 (ch : Fin 256) : Cert.ReferenceIdeal.Read.idx_main_v24 (col4 ch) = ix1 ch := funext fun d => by
  match d with
  | ⟨0, _⟩ => exact Fin.ext (by show ((0 * 256 + ch.val) * 1 + 0) * 1 + 0 = ch.val; omega)
theorem chancol_v12 (n : Fin 64) (ch : Fin 256) (p q : Fin 56) : Cert.ReferenceIdeal.Read.idx_main_v12 (ix4 n ch p q) = col4 ch := funext fun d => by
  match d with
  | ⟨0, _⟩ => rfl
  | ⟨1, _⟩ => rfl
  | ⟨2, _⟩ => rfl
  | ⟨3, _⟩ => rfl
theorem chancol_v30 (n : Fin 64) (ch : Fin 256) (p q : Fin 56) : Cert.ReferenceIdeal.Read.idx_main_v30 (ix4 n ch p q) = col4 ch := funext fun d => by
  match d with
  | ⟨0, _⟩ => rfl
  | ⟨1, _⟩ => rfl
  | ⟨2, _⟩ => rfl
  | ⟨3, _⟩ => rfl
theorem chancol_v32 (n : Fin 64) (ch : Fin 256) (p q : Fin 56) : Cert.ReferenceIdeal.Read.idx_main_v32 (ix4 n ch p q) = col4 ch := funext fun d => by
  match d with
  | ⟨0, _⟩ => rfl
  | ⟨1, _⟩ => rfl
  | ⟨2, _⟩ => rfl
  | ⟨3, _⟩ => rfl
theorem chancol_v36 (n : Fin 64) (ch : Fin 256) (p q : Fin 56) : Cert.ReferenceIdeal.Read.idx_main_v36 (ix4 n ch p q) = col4 ch := funext fun d => by
  match d with
  | ⟨0, _⟩ => rfl
  | ⟨1, _⟩ => rfl
  | ⟨2, _⟩ => rfl
  | ⟨3, _⟩ => rfl
theorem chancol_v40 (n : Fin 64) (ch : Fin 256) (p q : Fin 56) : Cert.ReferenceIdeal.Read.idx_main_v40 (ix4 n ch p q) = col4 ch := funext fun d => by
  match d with
  | ⟨0, _⟩ => rfl
  | ⟨1, _⟩ => rfl
  | ⟨2, _⟩ => rfl
  | ⟨3, _⟩ => rfl

/-- The reference's totals of squared deviations at a channel. -/
theorem ref_sq (a : S64x256x56x56.Idx → EReal) (ch : Fin 256) :
    Cert.ReferenceIdeal.Read.val_main_v17 (F := Ideal) a (ix1 ch)
      = ∑ n : Fin 64, ∑ p : Fin 56, ∑ q : Fin 56,
          (a (ix4 n ch p q) - (Cert.ReferenceIdeal.Read.val_main_v10 (F := Ideal) a (ix1 ch) : EReal)) * (a (ix4 n ch p q) - (Cert.ReferenceIdeal.Read.val_main_v10 (F := Ideal) a (ix1 ch) : EReal)) := by
  unfold Cert.ReferenceIdeal.Read.val_main_v17
  refine (hostReduceAdd_channel (Cert.ReferenceIdeal.Read.val_main_v16 (F := Ideal) a) (Cert.ReferenceIdeal.Read.val_main_cst_1 (F := Ideal)) _ _ ch).trans ?_
  show Ideal.ofBits .f32 0x00000000#32 + _ = _
  rw [Ideal.ofBits_zero_f32, zero_add]
  refine Finset.sum_congr rfl fun n _ => Finset.sum_congr rfl fun p _ => Finset.sum_congr rfl fun q _ => ?_
  show (a (ix4 n ch p q) - (Cert.ReferenceIdeal.Read.val_main_v12 (F := Ideal) a (ix4 n ch p q) : EReal)) * (a (ix4 n ch p q) - (Cert.ReferenceIdeal.Read.val_main_v12 (F := Ideal) a (ix4 n ch p q) : EReal)) = _
  rw [Cert.ReferenceIdeal.Read.val_main_v12_apply, Cert.ReferenceIdeal.Read.val_main_v11_apply, chancol_v12, flatcol_v11]

/-- A scalar constant broadcast to a column reads the constant's value. -/
theorem bcast_col (w : BitVec 32) (ch : Fin 256) :
    (broadcastInDim S1x256x1 ![] bcast_S_S1x256x1 (constant (F := Ideal) S_ .f32 w) : S1x256x1.Idx → EReal) (ix3 (0 : Fin 1) ch (0 : Fin 1))
      = Ideal.ofBits .f32 w :=
  broadcastInDim_apply _ bcast_S_S1x256x1 _ _ (fun a => a.elim0) (fun a => a.elim0)

/-- The two scales at a channel. -/
theorem scale_eq (a : S64x256x56x56.Idx → EReal) (ch : Fin 256) :
    scaleCol (sqArr (flat3 a) (meanCol (sumArr (flat3 a)))) (ix3 (0 : Fin 1) ch (0 : Fin 1)) = Cert.ReferenceIdeal.Read.val_main_v29 (F := Ideal) a (col4 ch) := by
  have h28 : (Cert.ReferenceIdeal.Read.val_main_v28 (F := Ideal) (col4 ch) : EReal) = Ideal.ofBits .f32 0x3F800000#32 := by
    rw [Cert.ReferenceIdeal.Read.val_main_v28_apply]; rfl
  have h25 : (Cert.ReferenceIdeal.Read.val_main_v25 (F := Ideal) (col4 ch) : EReal) = Ideal.ofBits .f32 0x3727C5AC#32 := by
    rw [Cert.ReferenceIdeal.Read.val_main_v25_apply]; rfl
  have h20 : (Cert.ReferenceIdeal.Read.val_main_v20 (F := Ideal) (ix1 ch) : EReal) = Ideal.ofBits .f32 0x48440000#32 := by
    rw [Cert.ReferenceIdeal.Read.val_main_v20_apply]; rfl
  have hq : sqArr (flat3 a) (meanCol (sumArr (flat3 a))) (ix3 (0 : Fin 1) ch (0 : Fin 1)) = Cert.ReferenceIdeal.Read.val_main_v17 (F := Ideal) a (ix1 ch) := by
    rw [sqArr_flat3, ref_sq, mean_eq]
  have h24 : (Cert.ReferenceIdeal.Read.val_main_v24 (F := Ideal) a (col4 ch) : EReal)
      = FloatOps.hostDivf (F := Ideal) (φ := .f32) (Cert.ReferenceIdeal.Read.val_main_v17 (F := Ideal) a (ix1 ch)) (Cert.ReferenceIdeal.Read.val_main_v20 (F := Ideal) (ix1 ch)) := by
    rw [Cert.ReferenceIdeal.Read.val_main_v24_apply, flatcol_v24]; rfl
  show FloatOps.hostDivf (F := Ideal) (φ := .f32)
      ((broadcastInDim S1x256x1 ![] bcast_S_S1x256x1 (constant (F := Ideal) S_ .f32 0x3F800000#32) : S1x256x1.Idx → EReal) (ix3 (0 : Fin 1) ch (0 : Fin 1)))
      (FloatOps.hostUnary (F := Ideal) (φ := .f32) .sqrt (FloatOps.addf (F := Ideal) (φ := .f32)
        (FloatOps.hostDivf (F := Ideal) (φ := .f32) (sqArr (flat3 a) (meanCol (sumArr (flat3 a))) (ix3 (0 : Fin 1) ch (0 : Fin 1)))
          ((broadcastInDim S1x256x1 ![] bcast_S_S1x256x1 (constant (F := Ideal) S_ .f32 0x48440000#32) : S1x256x1.Idx → EReal) (ix3 (0 : Fin 1) ch (0 : Fin 1))))
        ((broadcastInDim S1x256x1 ![] bcast_S_S1x256x1 (constant (F := Ideal) S_ .f32 0x3727C5AC#32) : S1x256x1.Idx → EReal) (ix3 (0 : Fin 1) ch (0 : Fin 1)))))
    = FloatOps.hostDivf (F := Ideal) (φ := .f32) (Cert.ReferenceIdeal.Read.val_main_v28 (F := Ideal) (col4 ch))
        (FloatOps.hostUnary (F := Ideal) (φ := .f32) .sqrt (FloatOps.addf (F := Ideal) (φ := .f32) (Cert.ReferenceIdeal.Read.val_main_v24 (F := Ideal) a (col4 ch)) (Cert.ReferenceIdeal.Read.val_main_v25 (F := Ideal) (col4 ch))))
  rw [bcast_col, bcast_col, bcast_col, hq, h28, h25, h24, h20]

/-- The two gains at a channel: the weight. -/
theorem gain_eq (a1 : S256.Idx → EReal) (ch : Fin 256) :
    gainCol a1 (ix3 (0 : Fin 1) ch (0 : Fin 1)) = Cert.ReferenceIdeal.Read.val_main_v4 (F := Ideal) a1 (col4 ch) := by
  rw [Cert.ReferenceIdeal.Read.val_main_v4_apply, flatcol_v4]
  unfold gainCol
  exact shapeCast_apply _ shapeCasts_S256_S1x256x1 _ (ix1 ch) (by
    rw [Shape.rowMajor_val_one, Shape.rowMajor_val_three]
    show ch.val = (0 * 256 + ch.val) * 1 + 0
    omega)

/-- The two shifts at a channel: the bias. -/
theorem shift_eq (a2 : S256.Idx → EReal) (ch : Fin 256) :
    shiftCol a2 (ix3 (0 : Fin 1) ch (0 : Fin 1)) = Cert.ReferenceIdeal.Read.val_main_v5 (F := Ideal) a2 (col4 ch) := by
  rw [Cert.ReferenceIdeal.Read.val_main_v5_apply, flatcol_v5]
  unfold shiftCol
  exact shapeCast_apply _ shapeCasts_S256_S1x256x1 _ (ix1 ch) (by
    rw [Shape.rowMajor_val_one, Shape.rowMajor_val_three]
    show ch.val = (0 * 256 + ch.val) * 1 + 0
    omega)

/-- THE BRIDGE: the idealized kernel's result and the reference's result are one function of the three arguments. -/
theorem kernelVal_eq (a0 : S64x256x56x56.Idx → EReal) (a1 a2 : S256.Idx → EReal) :
    kernelVal a0 a1 a2 = Cert.ReferenceIdeal.Read.val_main_v43 (F := Ideal) a0 a1 a2 := by
  funext i
  obtain ⟨n, ch, p, q, rfl⟩ : ∃ (n : Fin 64) (ch : Fin 256) (p q : Fin 56), i = ix4 n ch p q := ⟨i 0, i 1, i 2, i 3, eq_ix4 i⟩
  have hL : kernelVal a0 a1 a2 (ix4 n ch p q)
      = normArr (flat3 a0) (meanCol (sumArr (flat3 a0))) (scaleCol (sqArr (flat3 a0) (meanCol (sumArr (flat3 a0))))) (gainCol a1) (shiftCol a2)
          (ix3 n ch (⟨p.val * 56 + q.val, split_lt p q⟩ : Fin 3136)) :=
    shapeCast_apply _ shapeCasts_S64x256x3136_S64x256x56x56 _ _ (by
      rw [Shape.rowMajor_val_three, Shape.rowMajor_val_four]
      show (n.val * 256 + ch.val) * 3136 + (p.val * 56 + q.val) = ((n.val * 256 + ch.val) * 56 + p.val) * 56 + q.val
      omega)
  rw [hL]
  show ((flat3 a0 (ix3 n ch (⟨p.val * 56 + q.val, split_lt p q⟩ : Fin 3136)) - meanCol (sumArr (flat3 a0)) (ix3 (0 : Fin 1) ch (0 : Fin 1)))
        * scaleCol (sqArr (flat3 a0) (meanCol (sumArr (flat3 a0)))) (ix3 (0 : Fin 1) ch (0 : Fin 1)))
        * gainCol a1 (ix3 (0 : Fin 1) ch (0 : Fin 1))
      + shiftCol a2 (ix3 (0 : Fin 1) ch (0 : Fin 1))
    = ((a0 (ix4 n ch p q) - (Cert.ReferenceIdeal.Read.val_main_v30 (F := Ideal) a0 (ix4 n ch p q) : EReal)) * (Cert.ReferenceIdeal.Read.val_main_v32 (F := Ideal) a0 (ix4 n ch p q) : EReal))
        * (Cert.ReferenceIdeal.Read.val_main_v36 (F := Ideal) a1 (ix4 n ch p q) : EReal)
      + (Cert.ReferenceIdeal.Read.val_main_v40 (F := Ideal) a2 (ix4 n ch p q) : EReal)
  rw [flat3_apply, mean_eq, scale_eq, gain_eq, shift_eq,
    Cert.ReferenceIdeal.Read.val_main_v30_apply, Cert.ReferenceIdeal.Read.val_main_v32_apply, Cert.ReferenceIdeal.Read.val_main_v36_apply, Cert.ReferenceIdeal.Read.val_main_v40_apply, Cert.ReferenceIdeal.Read.val_main_v11_apply,
    chancol_v30, chancol_v32, chancol_v36, chancol_v40, flatcol_v11]

end Cert.KernelIdeal.Fr

end
-- ==== Proof.lean ====
/-
  The certificate: a batch normalization over [64, 256, 56, 56] computed by three kernel regions (per-channel
  totals with the tensor stored in bf16; per-channel totals of squared deviations; the normalization) against the
  same computation written as whole-array operations.

  Frames. The kernel program and its idealization run to the end, fault nowhere and leave their arguments as
  launched: each region's proof data say what its staging buffers hold after every grid point (for the two
  accumulating regions a scratch column is carried from point to point through the region invariant), each region is a
  segment of @main between stretches of host operations, and no stretch and no region writes an argument. The
  reference is host operations only.
  Preserves. The idealization removed five round trips f32 -> bf16 -> f32; each is its rule's statement.
  Algebraic. At the exact values the kernel's result is ((x - mean) * scale) * gain + shift with the mean and the
  scale built from per-channel totals accumulated block by block over the grid; the reference's totals are whole
  reductions. The totals agree because addition on the extended reals is commutative and associative (a reindexing
  of finite sums), so the precondition is not used.
-/
import proofs.«177003_j180388626588_2_alg».proof.Defs
import proofs.«177003_j180388626588_2_alg».proof.Proof.K.Run
import proofs.«177003_j180388626588_2_alg».proof.Proof.KI.Bridge
import proofs.«177003_j180388626588_2_alg».proof.Proof.Gen.ReferenceIdeal.Run
import proofs.«177003_j180388626588_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The five removed round trips, in the ledger's order. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

/-- Both programs end with the reference's function of the (agreeing) arguments in their result buffers. -/
theorem algebraic : Cert.algebraic_KernelIdeal_ReferenceIdeal := by
  intro m ρ m' ρ' _ hagree
  refine ⟨fun c => Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Fr.run_all (F := Ideal) m ρ)
    · exact ((h c _ (Cert.KernelIdeal.Fr.mem_uc Cert.KernelIdeal.main_v23 (by decide))).trans (Cert.KernelIdeal.Fr.W7_v23 m ρ c)).trans
        (Cert.KernelIdeal.Fr.kernelVal_eq _ _ _)
    · exact (h c _ (Cert.KernelIdeal.Fr.mem_uc Cert.KernelIdeal.main_arg0 (by decide))).trans (Cert.KernelIdeal.Fr.W7_main_arg0 m ρ c)
    · exact (h c _ (Cert.KernelIdeal.Fr.mem_uc Cert.KernelIdeal.main_arg1 (by decide))).trans (Cert.KernelIdeal.Fr.W7_main_arg1 m ρ c)
    · exact (h c _ (Cert.KernelIdeal.Fr.mem_uc Cert.KernelIdeal.main_arg2 (by decide))).trans (Cert.KernelIdeal.Fr.W7_main_arg2 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v43_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
